-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x10 .f32) (main_arg11 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x10 .f32) (main_arg11 : FVec F S10 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x8 .f32) (main_arg1 : IVec S2x1600000 32) (main_arg2 : FVec F S8x64 .f32) (main_arg3 : FVec F S64 .f32) (main_arg4 : FVec F S8x64 .f32) (main_arg5 : FVec F S64x64 .f32) (main_arg6 : FVec F S64 .f32) (main_arg7 : FVec F S64x64 .f32) (main_arg8 : FVec F S64x64 .f32) (main_arg9 : FVec F S64 .f32) (main_arg10 : FVec F S64x10 .f32) (main_arg11 : FVec F S10 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_arg7 main_arg8 main_arg9 main_arg10 main_arg11 main_v13 main_v16
-- ==== Kernel.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x8 : Shape := ⟨2, ![1600000, 8]⟩
abbrev S100000x64 : Shape := ⟨2, ![100000, 64]⟩
abbrev S5000x8 : Shape := ⟨2, ![5000, 8]⟩
abbrev S5000x1 : Shape := ⟨2, ![5000, 1]⟩
abbrev S5000x64 : Shape := ⟨2, ![5000, 64]⟩
abbrev S1x64 : Shape := ⟨2, ![1, 64]⟩
abbrev S1600000x64 : Shape := ⟨2, ![1600000, 64]⟩
abbrev S1x10 : Shape := ⟨2, ![1, 10]⟩
abbrev S1 : Shape := ⟨1, ![1]⟩
abbrev S1x1 : Shape := ⟨2, ![1, 1]⟩

abbrev nBuf : Space → Nat
  | .hbm => 51
  | .vmem => 26
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x64, .f32⟩
  | .hbm, ⟨3, _⟩ => ⟨S64, .f32⟩
  | .hbm, ⟨4, _⟩ => ⟨S8x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x8, .f32⟩
  | .hbm, ⟨32, _⟩ => ⟨S_, .f32⟩
  | .hbm, ⟨33, _⟩ => ⟨S100000x8, .f32⟩
  | .hbm, ⟨34, _⟩ => ⟨S1600000x1, .i32⟩
  | .hbm, ⟨35, _⟩ => ⟨S100000x8, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x10, .f32⟩
  | .local _ .vmem, ⟨0, _⟩ => ⟨S5000x8, .f32⟩
  | .local _ .vmem, ⟨1, _⟩ => ⟨S5000x8, .f32⟩
  | .local _ .vmem, ⟨2, _⟩ => ⟨S5000x8, .f32⟩
  | .local _ .vmem, ⟨3, _⟩ => ⟨S5000x8, .f32⟩
  | .local _ .vmem, ⟨4, _⟩ => ⟨S5000x1, .f32⟩
  | .local _ .vmem, ⟨5, _⟩ => ⟨S5000x1, .f32⟩
  | .local _ .vmem, ⟨6, _⟩ => ⟨S8x64, .f32⟩
  | .local _ .vmem, ⟨7, _⟩ => ⟨S64, .f32⟩
  | .local _ .vmem, ⟨8, _⟩ => ⟨S8x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S64x64, .f32⟩
  | .local _ .vmem, ⟨21, _⟩ => ⟨S64, .f32⟩
  | .local _ .vmem, ⟨22, _⟩ => ⟨S64x10, .f32⟩
  | .local _ .vmem, ⟨23, _⟩ => ⟨S10, .f32⟩
  | .local _ .vmem, ⟨24, _⟩ => ⟨S1x10, .f32⟩
  | .local _ .vmem, ⟨25, _⟩ => ⟨S1x64, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_19 : BitVec 32 := 0#32
  let v37 : BitVec 1 := Scalar.cmpi .ne v36 c0_i32_19
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x8 : S_.BroadcastsInDim S100000x8 (![] : Fin 0 → Fin S100000x8.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  broadcasts_S5000x1_S5000x8 : S5000x1.Broadcasts S5000x8
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  reduces_S5000x64_S64 : S5000x64.Reduces [0] S64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  reduces_S1x10_S1 : S1x10.Reduces [1] S1
  shapeCasts_S1_S1x1 : S1.ShapeCasts S1x1
  broadcasts_S1x1_S1x10 : S1x1.Broadcasts S1x10
  inb_S1x10_S1x10_0_0 : ∀ a, (![0, 0] : Fin 2 → Nat) a + S1x10.size a ≤ S1x10.size a
  h_S1x10 : 0 < S1x10.numel
  scatter_S100000_S1600000x1_S1600000_n_0_0_1_wf : ScatterDims.WF S100000 S1600000x1 S1600000 [] [0] [0] 1
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S5000x8_S8x64_S5000x64_1_0_0_1_n_n_wf : DotDims.WF S5000x8 S8x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S1x64_S64x64_S1x64_1_0_0_1_n_n_wf : DotDims.WF S1x64 S64x64 S1x64 [1] [0] [0] [1] [] []
  dot_S1x64_S64x10_S1x10_1_0_0_1_n_n_wf : DotDims.WF S1x64 S64x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S100000x8.size a
  hwx0_1 : ∀ i : grid0.Coords, EltTy.bits .f32 = 32 ∨ (Rect.block (s := S100000x8) S5000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x10.size a ≤ S64x10.size a
  hwx1_8 : ∀ i : grid1.Coords, EltTy.bits .f32 = 32 ∨ (Rect.block (s := S64x10) S64x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S10.size a ≤ S10.size a
  hwx1_9 : ∀ i : grid1.Coords, EltTy.bits .f32 = 32 ∨ (Rect.block (s := S10) S10.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S64x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S1x10.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x10 : Shape := ⟨2, ![1, 10]⟩
abbrev S1 : Shape := ⟨1, ![1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x64, .f32⟩
  | .hbm, ⟨3, _⟩ => ⟨S64, .f32⟩
  | .hbm, ⟨4, _⟩ => ⟨S8x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x8, .f32⟩
  | .hbm, ⟨25, _⟩ => ⟨S_, .f32⟩
  | .hbm, ⟨26, _⟩ => ⟨S100000x8, .f32⟩
  | .hbm, ⟨27, _⟩ => ⟨S1600000x1, .i32⟩
  | .hbm, ⟨28, _⟩ => ⟨S100000x8, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x8, .f32⟩
  | .hbm, ⟨40, _⟩ => ⟨S100000x8, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S1x10, .f32⟩
  | .hbm, ⟨101, _⟩ => ⟨S1x10, .f32⟩
  | .hbm, ⟨102, _⟩ => ⟨S1x10, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S1x10, .f32⟩
  | .hbm, ⟨110, _⟩ => ⟨S1x10, .f32⟩
  | .hbm, ⟨111, _⟩ => ⟨S1x10, .f32⟩
  | .hbm, ⟨112, _⟩ => ⟨S_, .f32⟩
  | .hbm, ⟨113, _⟩ => ⟨S1, .f32⟩
  | .hbm, ⟨114, _⟩ => ⟨S1x1, .f32⟩
  | .hbm, ⟨115, _⟩ => ⟨S1x10, .f32⟩
  | .hbm, ⟨116, _⟩ => ⟨S1x10, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S100000x8_S8x64_S100000x64_1_0_0_1_n_n_wf : DotDims.WF S100000x8 S8x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1x64_S64x64_S1x64_1_0_0_1_n_n_wf : DotDims.WF S1x64 S64x64 S1x64 [1] [0] [0] [1] [] []
  dot_S1x64_S64x10_S1x10_1_0_0_1_n_n_wf : DotDims.WF S1x64 S64x10 S1x10 [1] [0] [0] [1] [] []

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

class Facts : Prop extends Facts₀ where

variable [Facts]
-- ==== Proof.K.Region0.lean ====
/-
  The first layer's kernel on one tile of 5000 nodes.

  At a grid point the kernel is handed seven buffers. Six are read: the tile's rows of the node features (5000 x 8),
  the tile's rows of the summed neighbour features (5000 x 8), the tile's in-degrees (5000 x 1), the two 8 x 64 weight
  matrices and the bias row of 64 entries. The seventh is the tile's rows of the layer's output (5000 x 64). The body
  reads each of the six whole, reads the output buffer once without using what it read, and then overwrites the whole
  output buffer with one value computed from the six. So after the body each input buffer holds what it held, and the
  output buffer holds that one value: a function of the six input blocks alone, whatever the output buffer held before.

  The block of a window at a grid point is the part of the window's array, as the region finds it, that the point's
  index map selects. The three row-tiled inputs change block at every point; the weights and the bias have one block,
  brought in at the first point and still in place at every later one.
-/
import proofs.«116514_j64527588655232_2_alg».proof.Proof.Gen.Kernel.Launch
import proofs.«116514_j64527588655232_2_alg».proof.Proof.Gen.Kernel.Skeleton
import proofs.«116514_j64527588655232_2_alg».proof.Proof.Gen.Kernel.Points
import Idealize.ShloMosaic.Lib.Pipeline.FrameBody
import Idealize.ShloMosaic.Lib.Pipeline.Value
import Idealize.ShloMosaic.Lib.Tactic

-- an index of a 5000-row block is a structure as deep as the block is long
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the tensor core's buffers hold when the region is entered
variable (V : (c : Dev nD) → (b : Ref sig .tc) → Buf (Elt F) ((c : Thread nD τ).loc b))

/-! ## The windows' blocks -/

/-- The block of window `w` at point `t`: the window's array, at what the region finds in it, read at the
    indices the point's block covers. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input buffer holds its window's block at every point, for any proof data whose array is the region's and
    whose body leaves the block where it found it. At a point where the block was brought in this is what a
    transfer does. At a point where it was not, the block index is the previous point's, the body left the
    previous block in place, and equal indices select equal blocks. The second case is the only one the weights
    and the bias ever meet after the first point; the first is the only one the row-tiled inputs meet. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

-- each access is through the whole of its buffer: the rectangle at offset zero of the buffer's own extents
abbrev r0_S5000x8 : Rect S5000x8 := Rect.unit (s := S5000x8) ![0, 0] S5000x8.size inb_S5000x8_S5000x8_0_0
abbrev r0_S5000x1 : Rect S5000x1 := Rect.unit (s := S5000x1) ![0, 0] S5000x1.size inb_S5000x1_S5000x1_0_0
abbrev r0_S8x64 : Rect S8x64 := Rect.unit (s := S8x64) ![0, 0] S8x64.size inb_S8x64_S8x64_0_0
abbrev r0_S64 : Rect S64 := Rect.unit (s := S64) ![0] S64.size inb_S64_S64_0
abbrev r0_S5000x64 : Rect S5000x64 := Rect.unit (s := S5000x64) ![0, 0] S5000x64.size inb_S5000x64_S5000x64_0_0

theorem zero2 : (![0, 0] : Fin 2 → Nat) = fun _ => 0 := funext fun a => by fin_cases a <;> rfl
theorem zero1 : (![0] : Fin 1 → Nat) = fun _ => 0 := funext fun a => by fin_cases a; rfl

/-- What the body leaves in the output window's buffer, from the six input blocks in window order (features,
    neighbour sums, degrees, the weights applied to the neighbour mean, the bias, the weights applied to the
    features): the contents its one store leaves, the stored value computed from what the six loads read. -/
def out0_6 (x0 x1 : Vec F S5000x8 .f32) (x2 : Vec F S5000x1 .f32) (x3 : Vec F S8x64 .f32) (x4 : Vec F S64 .f32) (x5 : Vec F S8x64 .f32) : Vec F S5000x64 .f32 :=
  View.canon [⟨r0_S5000x64, k0_pay1 (View.ld x2 r0_S5000x1) (View.ld x1 r0_S5000x8) (View.ld x0 r0_S5000x8) (View.ld x3 r0_S8x64) (View.ld x5 r0_S8x64) (View.ld x4 r0_S64)⟩]

/-- A store through the whole buffer leaves its payload, and a load through the whole buffer reads the buffer:
    the output is the kernel's value at the six blocks themselves. -/
theorem out0_6_eq (x0 x1 : Vec F S5000x8 .f32) (x2 : Vec F S5000x1 .f32) (x3 : Vec F S8x64 .f32) (x4 : Vec F S64 .f32) (x5 : Vec F S8x64 .f32) :
    out0_6 x0 x1 x2 x3 x4 x5 = Gen.k0_pay1 x2 x1 x0 x3 x5 x4 := by
  unfold out0_6
  rw [View.canon_unit_zero zero2]
  rw [View.ld_unit_zero (S := S5000x1) zero2, View.ld_unit_zero (S := S5000x8) zero2, View.ld_unit_zero (S := S5000x8) zero2,
    View.ld_unit_zero (S := S8x64) zero2, View.ld_unit_zero (S := S8x64) zero2, View.ld_unit_zero (S := S64) zero1]

/-- The one store covers the output buffer: every index lies in the whole-buffer rectangle. -/
theorem cover0_6 (p0 : Vec F S5000x64 .f32) (y : S5000x64.Idx) :
    ∃ pc ∈ ([⟨r0_S5000x64, p0⟩] : List (View.Piece (Elt F) S5000x64 .f32)), y ∈ pc.1.set :=
  ⟨_, List.mem_singleton_self _, View.mem_set_unit_zero zero2 inb_S5000x64_S5000x64_0_0 y⟩

/-! ## The body's triple -/

set_option maxHeartbeats 1000000 in
/-- The body on seven whole buffers, the six inputs at read contents `x0 … x5` and the output at anything, runs to
    a state where the inputs read as before and the output reads `out0_6` of them. -/
theorem sound_kernel0 (c : Dev nD) (E : Set ℕ) (i : grid0.Coords)
    (arg1 : Memref sig .tc .vmem S5000x8 .f32) (harg1 : arg1.IsWhole) (arg2 : Memref sig .tc .vmem S5000x8 .f32) (harg2 : arg2.IsWhole)
    (arg3 : Memref sig .tc .vmem S5000x1 .f32) (harg3 : arg3.IsWhole) (arg4 : Memref sig .tc .vmem S8x64 .f32) (harg4 : arg4.IsWhole)
    (arg5 : Memref sig .tc .vmem S64 .f32) (harg5 : arg5.IsWhole) (arg6 : Memref sig .tc .vmem S8x64 .f32) (harg6 : arg6.IsWhole)
    (arg7 : Memref sig .tc .vmem S5000x64 .f32) (harg7 : arg7.IsWhole)
    (x0 x1 : Vec F S5000x8 .f32) (x2 : Vec F S5000x1 .f32) (x3 : Vec F S8x64 .f32) (x4 : Vec F S64 .f32) (x5 : Vec F S8x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage1_kernel i arg1 harg1 arg2 harg2 arg3 harg3 arg4 harg4 arg5 harg5 arg6 harg6 arg7 harg7) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of the region -/

/-- The proof data on core `c`. The arrays are what the region finds. After the body at point `t` each input
    buffer holds its block and the output buffer holds `out0_6` of the six blocks. Nothing else the core owns is
    touched, so the invariant is the untouched rest; the kernel signals no one, so nothing is owed; every array is
    held at full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The arrays of the proof data are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-! What the body finds in each input buffer: the window's block, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is entered with at point `t`: the invariant, the (empty) debt, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input buffer holds its block, so the body's triple applies at the six blocks; the
    invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point: the windows' conjunction written out is `bodyPre0` / `bodyPost0`. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Runs.lean ====
/- Pipeline 1 (the second SAGE layer with the column sums, then the head): what the three cases of its body
   share — the windows' blocks at the region-entry contents, the branch conditions in closed form over the grid,
   where the output window is idle, and the region invariant with the carried accumulator split off. -/
import proofs.«116514_j64527588655232_2_alg».proof.Proof.Gen.Kernel.Launch
import proofs.«116514_j64527588655232_2_alg».proof.Proof.Gen.Kernel.Skeleton
import proofs.«116514_j64527588655232_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional's condition (the accumulator is zero-filled under it), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the head is computed and stored under it). -/
abbrev cond1_1 (i : grid1.Coords) : Prop := k1_cond2 i = 1#1
/-- It holds at the last point only — decided over the grid. -/
theorem hcond1_1 : ∀ t : Fin cfg1.N, cond1_1 (grid1.coords t) ↔ t.val = 19 :=
  (by decide +kernel : ∀ t : Fin grid1.N, cond1_1 (grid1.coords t) ↔ t.val = 19)

/-! ## Where the output window is idle -/

/-- Away from the last point the output window is idle: nothing is stored into it. -/
theorem idleAt1_10 : ∀ t : Fin cfg1.N, ¬cond1_1 (grid1.coords t) → cfg1.idle 10 (grid1.coords t) = true := by decide +kernel
/-- and it is not written back there. -/
theorem noFlush1_10 : ∀ t : Fin cfg1.N, ¬cond1_1 (grid1.coords t) → (cfg1.win 10).flush t = false := by decide +kernel
/-- At the last point it is live. -/
theorem liveAt1_10 : ∀ t : Fin cfg1.N, cond1_1 (grid1.coords t) → cfg1.idle 10 (grid1.coords t) = false := by decide +kernel

/-! ## The accumulator and the rest of the invariant -/

/-- The accumulator: a whole scoped buffer of the kernel's own, passed beside the windows. -/
abbrev scM1 : Memref sig .tc .vmem S1x64 .f32 := Memref.whole cc1_scratch0

/-- The core's scoped buffers that belong to the other pipeline, each whole at some contents and untouched here,
    conjoined with `P`: the shape the region invariant has once the accumulator's part `P` is split off. -/
def withRest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

/-- The other pipeline's buffers alone. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem withRest1_split (c : Dev nD) (P : sProp 𝕄) : withRest1 (F := F) c P ⊢ iprop(rest1 (F := F) c ∗ P) := by
  unfold withRest1 rest1
  iintro ⟨R0, R1, R2, R3, R4, R5, R6, R7, R8, R9, R10, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact HP

theorem withRest1_join (c : Dev nD) (P : sProp 𝕄) : iprop(rest1 (F := F) c ∗ P) ⊢ withRest1 (F := F) c P := by
  unfold withRest1 rest1
  iintro ⟨⟨R0, R1, R2, R3, R4, R5, R6, R7, R8, R9, R10⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HP

/-- The region invariant of the class with the accumulator as a memref owned at some contents. -/
theorem PhiA1_eq (c : Dev nD) :
    (Pipeline.ΦA spec1 c : sProp 𝕄)
      = iprop(withRest1 c (iprop(∃ d, owns (c : Thread nD τ) scM1 fullShare d)) ∗ (∃ r, prngReg c r)) := by
  unfold Pipeline.ΦA withRest1; rw [scopedRest1_eq]; simp only [scM1, owns_whole]; try rfl

end Cert.Kernel.Hand

end
-- ==== Proof.K.Region1Run.lean ====
/- Pipeline 1's body run whole in each of its three cases: the first point (the accumulator is zero-filled, then the
   tile's column sums are added), a middle point (the sums are added to what the point before left), the last point
   (as a middle point, and then the head is computed from the accumulator and stored into the output block). -/
import proofs.«116514_j64527588655232_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem unitOff2_r1 : (![0, 0] : Fin 2 → Nat) = fun _ => 0 := funext fun a => by fin_cases a <;> rfl
theorem unitOff1_r1 : (![0] : Fin 1 → Nat) = fun _ => 0 := funext fun a => by fin_cases a <;> rfl

set_option maxHeartbeats 4000000 in
/-- The body in case A. -/
theorem kernelRun1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x10 .f32) (harg9 : arg9.IsWhole) (arg10 : Memref sig .tc .vmem S10 .f32) (harg10 : arg10.IsWhole) (arg11 : Memref sig .tc .vmem S1x10 .f32) (harg11 : arg11.IsWhole) (arg12 : Memref sig .tc .vmem S1x64 .f32) (harg12 : arg12.IsWhole) (hc0 : cond1_0 i) (hc1 : ¬cond1_1 i)
    (x0 : Vec F S5000x64 .f32) (x1 : Vec F S5000x64 .f32) (x2 : Vec F S5000x1 .f32) (x3 : Vec F S64x64 .f32) (x4 : Vec F S64 .f32) (x5 : Vec F S64x64 .f32) (x6 : Vec F S64x64 .f32) (x7 : Vec F S64 .f32) (x8 : Vec F S64x10 .f32) (x9 : Vec F S10 .f32) (xi10 : Vec F S1x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare (k1_pay3 x2 x1 x0 x3 x5 x4 k1_pay2)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; exact hf10
    iexact H10
  iexists _; isplitr
  swap; · iexact HS
  ipureintro
  sl_unfold_run_names
  rw [View.read_writes_eq_canon _ _ _ (fun y => ⟨_, List.Mem.head _, View.mem_set_unit_zero unitOff2_r1 inb_S1x64_S1x64_0_0 y⟩),
    View.canon_cons_unit_zero (S := S1x64) unitOff2_r1, View.readCov_unit_zero (S := S1x64) _ unitOff2_r1]
  simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]

set_option maxHeartbeats 4000000 in
/-- The body in case B. -/
theorem kernelRun1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x10 .f32) (harg9 : arg9.IsWhole) (arg10 : Memref sig .tc .vmem S10 .f32) (harg10 : arg10.IsWhole) (arg11 : Memref sig .tc .vmem S1x10 .f32) (harg11 : arg11.IsWhole) (arg12 : Memref sig .tc .vmem S1x64 .f32) (harg12 : arg12.IsWhole) (hc0 : ¬cond1_0 i) (hc1 : ¬cond1_1 i)
    (x0 : Vec F S5000x64 .f32) (x1 : Vec F S5000x64 .f32) (x2 : Vec F S5000x1 .f32) (x3 : Vec F S64x64 .f32) (x4 : Vec F S64 .f32) (x5 : Vec F S64x64 .f32) (x6 : Vec F S64x64 .f32) (x7 : Vec F S64 .f32) (x8 : Vec F S64x10 .f32) (x9 : Vec F S10 .f32) (xi10 : Vec F S1x10 .f32) (xs : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare (k1_pay3 x2 x1 x0 x3 x5 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; exact hf10
    iexact H10
  iexists _; isplitr
  swap; · iexact HS
  ipureintro
  sl_unfold_run_names
  rw [View.read_writes_eq_canon _ _ _ (fun y => ⟨_, List.Mem.head _, View.mem_set_unit_zero unitOff2_r1 inb_S1x64_S1x64_0_0 y⟩),
    View.canon_cons_unit_zero (S := S1x64) unitOff2_r1]
  simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]

set_option maxHeartbeats 4000000 in
/-- The body in case C. -/
theorem kernelRun1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x10 .f32) (harg9 : arg9.IsWhole) (arg10 : Memref sig .tc .vmem S10 .f32) (harg10 : arg10.IsWhole) (arg11 : Memref sig .tc .vmem S1x10 .f32) (harg11 : arg11.IsWhole) (arg12 : Memref sig .tc .vmem S1x64 .f32) (harg12 : arg12.IsWhole) (hc0 : ¬cond1_0 i) (hc1 : cond1_1 i)
    (x0 : Vec F S5000x64 .f32) (x1 : Vec F S5000x64 .f32) (x2 : Vec F S5000x1 .f32) (x3 : Vec F S64x64 .f32) (x4 : Vec F S64 .f32) (x5 : Vec F S64x64 .f32) (x6 : Vec F S64x64 .f32) (x7 : Vec F S64 .f32) (x8 : Vec F S64x10 .f32) (x9 : Vec F S10 .f32) (xs : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k1_pay1 (k1_pay3 x2 x1 x0 x3 x5 x4 xs) x6 x7 x8 x9) ∗ owns (c : Thread nD τ) arg12 fullShare (k1_pay3 x2 x1 x0 x3 x5 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    rw [View.read_writes_eq_canon _ _ _ (fun y => ⟨_, List.Mem.head _, View.mem_set_unit_zero unitOff2_r1 inb_S1x10_S1x10_0_0 y⟩),
      View.canon_unit_zero (S := S1x10) unitOff2_r1, View.readCov_unit_zero (S := S1x64) _ unitOff2_r1]
    simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]
  iexists _; isplitr
  swap; · iexact HS
  ipureintro
  sl_unfold_run_names
  rw [View.read_writes_eq_canon _ _ _ (fun y => ⟨_, List.Mem.head _, View.mem_set_unit_zero unitOff2_r1 inb_S1x64_S1x64_0_0 y⟩),
    View.canon_cons_unit_zero (S := S1x64) unitOff2_r1]
  simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]

end Cert.Kernel.Hand

end
-- ==== Proof.K.Region1.lean ====
/- Pipeline 1's half of the frame: what the carried accumulator holds after each point (the column sums of the
   second layer's tiles, added up in grid order), what the output block holds after the last point (the head of the
   accumulator), the proof data, and the body obligation at every point. -/
import proofs.«116514_j64527588655232_2_alg».proof.Proof.K.Region1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What the accumulator and the output hold -/

/-- The accumulator after point `n`: at the first point the tile's column sums added to the zero fill; at a later
    point added to what the point before left. -/
def acc1 (c : Dev nD) : (n : ℕ) → n < cfg1.N → Vec F S1x64 .f32
  | 0, hn => k1_pay3 (iblk1 V c 2 ⟨0, hn⟩) (iblk1 V c 1 ⟨0, hn⟩) (iblk1 V c 0 ⟨0, hn⟩) (iblk1 V c 3 ⟨0, hn⟩) (iblk1 V c 5 ⟨0, hn⟩) (iblk1 V c 4 ⟨0, hn⟩) k1_pay2
  | n + 1, hn => k1_pay3 (iblk1 V c 2 ⟨n + 1, hn⟩) (iblk1 V c 1 ⟨n + 1, hn⟩) (iblk1 V c 0 ⟨n + 1, hn⟩) (iblk1 V c 3 ⟨n + 1, hn⟩) (iblk1 V c 5 ⟨n + 1, hn⟩) (iblk1 V c 4 ⟨n + 1, hn⟩) (acc1 c n (Nat.lt_of_succ_lt hn))

/-- At the first point. -/
theorem acc1_first (c : Dev nD) (t : Fin cfg1.N) (h : t.val = 0) :
    acc1 V c t.val t.isLt = k1_pay3 (iblk1 V c 2 t) (iblk1 V c 1 t) (iblk1 V c 0 t) (iblk1 V c 3 t) (iblk1 V c 5 t) (iblk1 V c 4 t) k1_pay2 := by
  obtain ⟨n, hn⟩ := t
  cases n with
  | zero => rfl
  | succ n => exact absurd h (Nat.succ_ne_zero n)

/-- At a later point. -/
theorem acc1_later (c : Dev nD) (t : Fin cfg1.N) (h : t.val ≠ 0) :
    acc1 V c t.val t.isLt = k1_pay3 (iblk1 V c 2 t) (iblk1 V c 1 t) (iblk1 V c 0 t) (iblk1 V c 3 t) (iblk1 V c 5 t) (iblk1 V c 4 t) (acc1 V c (t.val - 1) (Nat.lt_of_le_of_lt (Nat.sub_le _ _) t.isLt)) := by
  obtain ⟨n, hn⟩ := t
  cases n with
  | zero => exact absurd rfl h
  | succ n => rfl

/-- The grid's last point. -/
abbrev tLast1 : Fin cfg1.N := ⟨19, by decide⟩

/-- The output block after the last point: the head (mean, two dense layers, softmax) of the accumulator. -/
def outLast (c : Dev nD) : Vec F S1x10 .f32 :=
  k1_pay1 (acc1 V c 19 (by decide)) (iblk1 V c 6 tLast1) (iblk1 V c 7 tLast1) (iblk1 V c 8 tLast1) (iblk1 V c 9 tLast1)

/-! ## The region invariant -/

/-- Before point `n`: the class's invariant before the first point; afterwards the other pipeline's buffers, the
    accumulator at what the point before left, and the generator register at some state. -/
def PhiS1 (c : Dev nD) : (n : ℕ) → n ≤ cfg1.N → sProp 𝕄
  | 0, _ => Pipeline.ΦA spec1 c
  | n + 1, hn => iprop(withRest1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(withRest1 c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(withRest1 c (owns (c : Thread nD τ) scM1 fullShare (acc1 V c (n - 1) (by omega))) ∗ (∃ r, prngReg c r)) := by
  cases n with
  | zero => exact absurd rfl hz
  | succ n => rfl

/-! ## The proof data -/

/-- The proof data of pipeline 1 on core `c`: the arrays as the region finds them; after the body each input's buffer
    at its block and the output's at the head of the final accumulator (read at the last point only: elsewhere the
    window is idle and not written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outLast V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outLast V c := by dsimp only [dat1]

/-- The output block at the last point. -/
theorem after1_10_last (c : Dev nD) (t : Fin cfg1.N) (ht : t.val = 19) : (dat1 V c).after 10 t = outLast V c :=
  after1_10 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- The output block in terms of the last point's own blocks and what the point before left. -/
theorem outLast_eq (c : Dev nD) (t : Fin cfg1.N) (ht : t.val = 19) :
    outLast V c = k1_pay1 (k1_pay3 (iblk1 V c 2 t) (iblk1 V c 1 t) (iblk1 V c 0 t) (iblk1 V c 3 t) (iblk1 V c 5 t) (iblk1 V c 4 t) (acc1 V c (t.val - 1) (Nat.lt_of_le_of_lt (Nat.sub_le _ _) t.isLt))) (iblk1 V c 6 t) (iblk1 V c 7 t) (iblk1 V c 8 t) (iblk1 V c 9 t) := by
  obtain rfl : t = tLast1 := Fin.ext ht
  unfold outLast
  rw [show acc1 V c 19 (by decide) = acc1 V c tLast1.val tLast1.isLt from rfl, acc1_later V c tLast1 (by decide)]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4800000 in
/-- The body at any point: the inputs' memrefs hold their blocks; the closed forms say which case the point is in, so
    that case's run applies; the invariant hands the body the accumulator at what the point before left (at anything
    at the first point) and takes it back at this point's contents; the output window is handed back untouched
    except at the last point, where it is left at the head of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  rw [show (dat1 V c).leavesExact 7 t = owns (c : Thread nD τ) (st1_7 t) fullShare ((dat1 V c).after 7 t) from rfl, after1_7]
  rw [show (dat1 V c).leavesExact 8 t = owns (c : Thread nD τ) (st1_8 t) fullShare ((dat1 V c).after 8 t) from rfl, after1_8]
  rw [show (dat1 V c).leavesExact 9 t = owns (c : Thread nD τ) (st1_9 t) fullShare ((dat1 V c).after 9 t) from rfl, after1_9]
  have hN : t.val < 20 := lt_of_lt_of_eq t.isLt (show cfg1.N = 20 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 10 t (idleAt1_10 t hc1) (noFlush1_10 t hc1)]
    rw [acc1_first V c t h0]
    rw [PhiS1_castSucc V c t, PhiS1_zero V c _ _ h0, PhiA1_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HR' := (withRest1_split c _) $$ HR
    icases HR' with ⟨HR, HS⟩
    iapply (kernelRun1_A c (grid1.coords t) _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HR HS Hg]
    · isplitl [HR HS]
      · iapply (withRest1_join c _)
        isplitl [HR]; · iexact HR
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hc0 : ¬cond1_0 (grid1.coords t) := fun h => h0 ((hcond1_0 t).mp h)
    by_cases h1 : t.val = 19
    · have hc1 : cond1_1 (grid1.coords t) := (hcond1_1 t).mpr h1
      rw [show (dat1 V c).leavesExact 10 t = owns (c : Thread nD τ) (st1_10 t) fullShare ((dat1 V c).after 10 t) from by
        unfold Dat.leavesExact; rw [liveAt1_10 t hc1], after1_10, outLast_eq V c t h1]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HR' := (withRest1_split c _) $$ HR
      icases HR' with ⟨HR, HS⟩
      iapply (kernelRun1_C c (grid1.coords t) _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HR HS Hg]
      · isplitl [HR HS]
        · iapply (withRest1_join c _)
          isplitl [HR]; · iexact HR
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬cond1_1 (grid1.coords t) := fun h => h1 ((hcond1_1 t).mp h)
      rw [Dat.leavesExact_idle (dat1 V c) 10 t (idleAt1_10 t hc1) (noFlush1_10 t hc1)]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HR' := (withRest1_split c _) $$ HR
      icases HR' with ⟨HR, HS⟩
      iapply (kernelRun1_B c (grid1.coords t) _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HR HS Hg]
      · isplitl [HR HS]
        · iapply (withRest1_join c _)
          isplitl [HR]; · iexact HR
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := (withRest1_split c _) $$ HR
    icases HR' with ⟨HR, HS⟩
    iapply (withRest1_join c _)
    isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region1

end Cert.Kernel.Hand

end
-- ==== Proof.K.Run.lean ====
/-
  The word-level kernel program's run: @main as host operations, the first kernel, host operations, the second kernel.

  The same argument as for the idealized program, at any float instance: the contents of a core's buffers are followed
  through @main as a fold from the launch memory; each kernel region enters with every unscoped buffer held at the
  contents before it and leaves with them held at the contents after it; at the end every unscoped buffer is read at
  the last boundary's contents, and the argument arrays, which nothing writes, hold their launch contents.
-/
import proofs.«116514_j64527588655232_2_alg».proof.Proof.Gen.Kernel.Launch
import proofs.«116514_j64527588655232_2_alg».proof.Proof.Gen.Kernel.Skeleton
import proofs.«116514_j64527588655232_2_alg».proof.Proof.Gen.Kernel.Points
import proofs.«116514_j64527588655232_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116514_j64527588655232_2_alg».proof.Proof.K.Region0
import proofs.«116514_j64527588655232_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of the core's buffers at each boundary of @main

@main is: host operations, region 0, host operations, region 1. The buffers' contents are followed through it as a
fold from the launch memory: a stretch of host operations applies them in order; a region replaces its windows' arrays by
what the pipeline's write-backs leave and keeps every other buffer. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no operation of the first stretch writes is as launched after it, -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- and one the second stretch does not write is, after it, as region 0 left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ## The arguments end as launched

An argument is read by a region through an input window (whose array the pipeline never writes) or not at all, and no
host operation writes it: the fold at its buffer walks back to the launch memory. -/

/-- No host operation writes `main_arg0` and no region changes it: at the end it holds its launch contents. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

/-- No host operation writes `main_arg1` and no region changes it: at the end it holds its launch contents. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- No host operation writes `main_arg2` and no region changes it: at the end it holds its launch contents. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide : main_arg2 ∉ hostOps0_W)
    _ = m ((c : Thread nD τ).loc main_arg2) := rfl

/-- No host operation writes `main_arg3` and no region changes it: at the end it holds its launch contents. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_writes_sub hostOps0 _ hostOps0_writes (by decide : main_arg3 ∉ hostOps0_W)
    _ = m ((c : Thread nD τ).loc main_arg3) := rfl

/-- No host operation writes `main_arg4` and no region changes it: at the end it holds its launch contents. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_writes_sub hostOps0 _ hostOps0_writes (by decide : main_arg4 ∉ hostOps0_W)
    _ = m ((c : Thread nD τ).loc main_arg4) := rfl

/-- No host operation writes `main_arg5` and no region changes it: at the end it holds its launch contents. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- No host operation writes `main_arg6` and no region changes it: at the end it holds its launch contents. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-- No host operation writes `main_arg7` and no region changes it: at the end it holds its launch contents. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- No host operation writes `main_arg8` and no region changes it: at the end it holds its launch contents. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 6).trans (((dat1 (V3 m ρ) c).arrAt_in 6 rfl _).trans (A_eq1 (V3 m ρ) c 6))
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-- No host operation writes `main_arg9` and no region changes it: at the end it holds its launch contents. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 7).trans (((dat1 (V3 m ρ) c).arrAt_in 7 rfl _).trans (A_eq1 (V3 m ρ) c 7))
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-- No host operation writes `main_arg10` and no region changes it: at the end it holds its launch contents. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 8).trans (((dat1 (V3 m ρ) c).arrAt_in 8 rfl _).trans (A_eq1 (V3 m ρ) c 8))
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-- No host operation writes `main_arg11` and no region changes it: at the end it holds its launch contents. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 9).trans (((dat1 (V3 m ρ) c).arrAt_in 9 rfl _).trans (A_eq1 (V3 m ρ) c 9))
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-! ## The proof data family, the thread state, the segments -/

abbrev adm : (p : Fin 2) → (pcfgs (F := F) p).Adm := fun p => (cfgs p).toPCfg_adm
/-- Each pipeline's proof data at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 as a segment: entered with every unscoped buffer at the contents before it, left with them at the contents
    after it. Its windows' arrays are split out of the unscoped buffers on entry and put back, at what the write-backs
    left, on exit; the generator register rides in the region's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it. Its windows' arrays are split out of the unscoped buffers on entry and put back, at what the write-backs
    left, on exit; the generator register rides in the region's invariant; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the run, read at the twelve argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

end Cert.Kernel.Hand

end
-- ==== Proof.KI.Region0.lean ====
/-
  The first layer's kernel on one tile of 5000 nodes.

  At a grid point the kernel is handed seven buffers. Six are read: the tile's rows of the node features (5000 x 8),
  the tile's rows of the summed neighbour features (5000 x 8), the tile's in-degrees (5000 x 1), the two 8 x 64 weight
  matrices and the bias row of 64 entries. The seventh is the tile's rows of the layer's output (5000 x 64). The body
  reads each of the six whole, reads the output buffer once without using what it read, and then overwrites the whole
  output buffer with one value computed from the six. So after the body each input buffer holds what it held, and the
  output buffer holds that one value: a function of the six input blocks alone, whatever the output buffer held before.

  The block of a window at a grid point is the part of the window's array, as the region finds it, that the point's
  index map selects. The three row-tiled inputs change block at every point; the weights and the bias have one block,
  brought in at the first point and still in place at every later one.
-/
import proofs.«116514_j64527588655232_2_alg».proof.Proof.Gen.KernelIdeal.Launch
import proofs.«116514_j64527588655232_2_alg».proof.Proof.Gen.KernelIdeal.Skeleton
import proofs.«116514_j64527588655232_2_alg».proof.Proof.Gen.KernelIdeal.Points
import Idealize.ShloMosaic.Lib.Pipeline.FrameBody
import Idealize.ShloMosaic.Lib.Pipeline.Value
import Idealize.ShloMosaic.Lib.Tactic

-- an index of a 5000-row block is a structure as deep as the block is long
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- what the tensor core's buffers hold when the region is entered
variable (V : (c : Dev nD) → (b : Ref sig .tc) → Buf (Elt F) ((c : Thread nD τ).loc b))

/-! ## The windows' blocks -/

/-- The block of window `w` at point `t`: the window's array, at what the region finds in it, read at the
    indices the point's block covers. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input buffer holds its window's block at every point, for any proof data whose array is the region's and
    whose body leaves the block where it found it. At a point where the block was brought in this is what a
    transfer does. At a point where it was not, the block index is the previous point's, the body left the
    previous block in place, and equal indices select equal blocks. The second case is the only one the weights
    and the bias ever meet after the first point; the first is the only one the row-tiled inputs meet. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

-- each access is through the whole of its buffer: the rectangle at offset zero of the buffer's own extents
abbrev r0_S5000x8 : Rect S5000x8 := Rect.unit (s := S5000x8) ![0, 0] S5000x8.size inb_S5000x8_S5000x8_0_0
abbrev r0_S5000x1 : Rect S5000x1 := Rect.unit (s := S5000x1) ![0, 0] S5000x1.size inb_S5000x1_S5000x1_0_0
abbrev r0_S8x64 : Rect S8x64 := Rect.unit (s := S8x64) ![0, 0] S8x64.size inb_S8x64_S8x64_0_0
abbrev r0_S64 : Rect S64 := Rect.unit (s := S64) ![0] S64.size inb_S64_S64_0
abbrev r0_S5000x64 : Rect S5000x64 := Rect.unit (s := S5000x64) ![0, 0] S5000x64.size inb_S5000x64_S5000x64_0_0

theorem zero2 : (![0, 0] : Fin 2 → Nat) = fun _ => 0 := funext fun a => by fin_cases a <;> rfl
theorem zero1 : (![0] : Fin 1 → Nat) = fun _ => 0 := funext fun a => by fin_cases a; rfl

/-- What the body leaves in the output window's buffer, from the six input blocks in window order (features,
    neighbour sums, degrees, the weights applied to the neighbour mean, the bias, the weights applied to the
    features): the contents its one store leaves, the stored value computed from what the six loads read. -/
def out0_6 (x0 x1 : Vec F S5000x8 .f32) (x2 : Vec F S5000x1 .f32) (x3 : Vec F S8x64 .f32) (x4 : Vec F S64 .f32) (x5 : Vec F S8x64 .f32) : Vec F S5000x64 .f32 :=
  View.canon [⟨r0_S5000x64, k0_pay1 (View.ld x2 r0_S5000x1) (View.ld x1 r0_S5000x8) (View.ld x0 r0_S5000x8) (View.ld x3 r0_S8x64) (View.ld x5 r0_S8x64) (View.ld x4 r0_S64)⟩]

/-- A store through the whole buffer leaves its payload, and a load through the whole buffer reads the buffer:
    the output is the kernel's value at the six blocks themselves. -/
theorem out0_6_eq (x0 x1 : Vec F S5000x8 .f32) (x2 : Vec F S5000x1 .f32) (x3 : Vec F S8x64 .f32) (x4 : Vec F S64 .f32) (x5 : Vec F S8x64 .f32) :
    out0_6 x0 x1 x2 x3 x4 x5 = Gen.k0_pay1 x2 x1 x0 x3 x5 x4 := by
  unfold out0_6
  rw [View.canon_unit_zero zero2]
  rw [View.ld_unit_zero (S := S5000x1) zero2, View.ld_unit_zero (S := S5000x8) zero2, View.ld_unit_zero (S := S5000x8) zero2,
    View.ld_unit_zero (S := S8x64) zero2, View.ld_unit_zero (S := S8x64) zero2, View.ld_unit_zero (S := S64) zero1]

/-- The one store covers the output buffer: every index lies in the whole-buffer rectangle. -/
theorem cover0_6 (p0 : Vec F S5000x64 .f32) (y : S5000x64.Idx) :
    ∃ pc ∈ ([⟨r0_S5000x64, p0⟩] : List (View.Piece (Elt F) S5000x64 .f32)), y ∈ pc.1.set :=
  ⟨_, List.mem_singleton_self _, View.mem_set_unit_zero zero2 inb_S5000x64_S5000x64_0_0 y⟩

/-! ## The body's triple -/

set_option maxHeartbeats 1000000 in
/-- The body on seven whole buffers, the six inputs at read contents `x0 … x5` and the output at anything, runs to
    a state where the inputs read as before and the output reads `out0_6` of them. -/
theorem sound_kernel0 (c : Dev nD) (E : Set ℕ) (i : grid0.Coords)
    (arg1 : Memref sig .tc .vmem S5000x8 .f32) (harg1 : arg1.IsWhole) (arg2 : Memref sig .tc .vmem S5000x8 .f32) (harg2 : arg2.IsWhole)
    (arg3 : Memref sig .tc .vmem S5000x1 .f32) (harg3 : arg3.IsWhole) (arg4 : Memref sig .tc .vmem S8x64 .f32) (harg4 : arg4.IsWhole)
    (arg5 : Memref sig .tc .vmem S64 .f32) (harg5 : arg5.IsWhole) (arg6 : Memref sig .tc .vmem S8x64 .f32) (harg6 : arg6.IsWhole)
    (arg7 : Memref sig .tc .vmem S5000x64 .f32) (harg7 : arg7.IsWhole)
    (x0 x1 : Vec F S5000x8 .f32) (x2 : Vec F S5000x1 .f32) (x3 : Vec F S8x64 .f32) (x4 : Vec F S64 .f32) (x5 : Vec F S8x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage1_kernel i arg1 harg1 arg2 harg2 arg3 harg3 arg4 harg4 arg5 harg5 arg6 harg6 arg7 harg7) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of the region -/

/-- The proof data on core `c`. The arrays are what the region finds. After the body at point `t` each input
    buffer holds its block and the output buffer holds `out0_6` of the six blocks. Nothing else the core owns is
    touched, so the invariant is the untouched rest; the kernel signals no one, so nothing is owed; every array is
    held at full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The arrays of the proof data are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-! What the body finds in each input buffer: the window's block, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is entered with at point `t`: the invariant, the (empty) debt, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input buffer holds its block, so the body's triple applies at the six blocks; the
    invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point: the windows' conjunction written out is `bodyPre0` / `bodyPost0`. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Runs.lean ====
/- Pipeline 1 (the second SAGE layer with the column sums, then the head): what the three cases of its body
   share — the windows' blocks at the region-entry contents, the branch conditions in closed form over the grid,
   where the output window is idle, and the region invariant with the carried accumulator split off. -/
import proofs.«116514_j64527588655232_2_alg».proof.Proof.Gen.KernelIdeal.Launch
import proofs.«116514_j64527588655232_2_alg».proof.Proof.Gen.KernelIdeal.Skeleton
import proofs.«116514_j64527588655232_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional's condition (the accumulator is zero-filled under it), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the head is computed and stored under it). -/
abbrev cond1_1 (i : grid1.Coords) : Prop := k1_cond2 i = 1#1
/-- It holds at the last point only — decided over the grid. -/
theorem hcond1_1 : ∀ t : Fin cfg1.N, cond1_1 (grid1.coords t) ↔ t.val = 19 :=
  (by decide +kernel : ∀ t : Fin grid1.N, cond1_1 (grid1.coords t) ↔ t.val = 19)

/-! ## Where the output window is idle -/

/-- Away from the last point the output window is idle: nothing is stored into it. -/
theorem idleAt1_10 : ∀ t : Fin cfg1.N, ¬cond1_1 (grid1.coords t) → cfg1.idle 10 (grid1.coords t) = true := by decide +kernel
/-- and it is not written back there. -/
theorem noFlush1_10 : ∀ t : Fin cfg1.N, ¬cond1_1 (grid1.coords t) → (cfg1.win 10).flush t = false := by decide +kernel
/-- At the last point it is live. -/
theorem liveAt1_10 : ∀ t : Fin cfg1.N, cond1_1 (grid1.coords t) → cfg1.idle 10 (grid1.coords t) = false := by decide +kernel

/-! ## The accumulator and the rest of the invariant -/

/-- The accumulator: a whole scoped buffer of the kernel's own, passed beside the windows. -/
abbrev scM1 : Memref sig .tc .vmem S1x64 .f32 := Memref.whole cc1_scratch0

/-- The core's scoped buffers that belong to the other pipeline, each whole at some contents and untouched here,
    conjoined with `P`: the shape the region invariant has once the accumulator's part `P` is split off. -/
def withRest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

/-- The other pipeline's buffers alone. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem withRest1_split (c : Dev nD) (P : sProp 𝕄) : withRest1 (F := F) c P ⊢ iprop(rest1 (F := F) c ∗ P) := by
  unfold withRest1 rest1
  iintro ⟨R0, R1, R2, R3, R4, R5, R6, R7, R8, R9, R10, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact HP

theorem withRest1_join (c : Dev nD) (P : sProp 𝕄) : iprop(rest1 (F := F) c ∗ P) ⊢ withRest1 (F := F) c P := by
  unfold withRest1 rest1
  iintro ⟨⟨R0, R1, R2, R3, R4, R5, R6, R7, R8, R9, R10⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HP

/-- The region invariant of the class with the accumulator as a memref owned at some contents. -/
theorem PhiA1_eq (c : Dev nD) :
    (Pipeline.ΦA spec1 c : sProp 𝕄)
      = iprop(withRest1 c (iprop(∃ d, owns (c : Thread nD τ) scM1 fullShare d)) ∗ (∃ r, prngReg c r)) := by
  unfold Pipeline.ΦA withRest1; rw [scopedRest1_eq]; simp only [scM1, owns_whole]; try rfl

end Cert.KernelIdeal.Hand

end
-- ==== Proof.KI.Region1Run.lean ====
/- Pipeline 1's body run whole in each of its three cases: the first point (the accumulator is zero-filled, then the
   tile's column sums are added), a middle point (the sums are added to what the point before left), the last point
   (as a middle point, and then the head is computed from the accumulator and stored into the output block). -/
import proofs.«116514_j64527588655232_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem unitOff2_r1 : (![0, 0] : Fin 2 → Nat) = fun _ => 0 := funext fun a => by fin_cases a <;> rfl
theorem unitOff1_r1 : (![0] : Fin 1 → Nat) = fun _ => 0 := funext fun a => by fin_cases a <;> rfl

set_option maxHeartbeats 4000000 in
/-- The body in case A. -/
theorem kernelRun1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x10 .f32) (harg9 : arg9.IsWhole) (arg10 : Memref sig .tc .vmem S10 .f32) (harg10 : arg10.IsWhole) (arg11 : Memref sig .tc .vmem S1x10 .f32) (harg11 : arg11.IsWhole) (arg12 : Memref sig .tc .vmem S1x64 .f32) (harg12 : arg12.IsWhole) (hc0 : cond1_0 i) (hc1 : ¬cond1_1 i)
    (x0 : Vec F S5000x64 .f32) (x1 : Vec F S5000x64 .f32) (x2 : Vec F S5000x1 .f32) (x3 : Vec F S64x64 .f32) (x4 : Vec F S64 .f32) (x5 : Vec F S64x64 .f32) (x6 : Vec F S64x64 .f32) (x7 : Vec F S64 .f32) (x8 : Vec F S64x10 .f32) (x9 : Vec F S10 .f32) (xi10 : Vec F S1x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare (k1_pay3 x2 x1 x0 x3 x5 x4 k1_pay2)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; exact hf10
    iexact H10
  iexists _; isplitr
  swap; · iexact HS
  ipureintro
  sl_unfold_run_names
  rw [View.read_writes_eq_canon _ _ _ (fun y => ⟨_, List.Mem.head _, View.mem_set_unit_zero unitOff2_r1 inb_S1x64_S1x64_0_0 y⟩),
    View.canon_cons_unit_zero (S := S1x64) unitOff2_r1, View.readCov_unit_zero (S := S1x64) _ unitOff2_r1]
  simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]

set_option maxHeartbeats 4000000 in
/-- The body in case B. -/
theorem kernelRun1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x10 .f32) (harg9 : arg9.IsWhole) (arg10 : Memref sig .tc .vmem S10 .f32) (harg10 : arg10.IsWhole) (arg11 : Memref sig .tc .vmem S1x10 .f32) (harg11 : arg11.IsWhole) (arg12 : Memref sig .tc .vmem S1x64 .f32) (harg12 : arg12.IsWhole) (hc0 : ¬cond1_0 i) (hc1 : ¬cond1_1 i)
    (x0 : Vec F S5000x64 .f32) (x1 : Vec F S5000x64 .f32) (x2 : Vec F S5000x1 .f32) (x3 : Vec F S64x64 .f32) (x4 : Vec F S64 .f32) (x5 : Vec F S64x64 .f32) (x6 : Vec F S64x64 .f32) (x7 : Vec F S64 .f32) (x8 : Vec F S64x10 .f32) (x9 : Vec F S10 .f32) (xi10 : Vec F S1x10 .f32) (xs : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare (k1_pay3 x2 x1 x0 x3 x5 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; exact hf10
    iexact H10
  iexists _; isplitr
  swap; · iexact HS
  ipureintro
  sl_unfold_run_names
  rw [View.read_writes_eq_canon _ _ _ (fun y => ⟨_, List.Mem.head _, View.mem_set_unit_zero unitOff2_r1 inb_S1x64_S1x64_0_0 y⟩),
    View.canon_cons_unit_zero (S := S1x64) unitOff2_r1]
  simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]

set_option maxHeartbeats 4000000 in
/-- The body in case C. -/
theorem kernelRun1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x10 .f32) (harg9 : arg9.IsWhole) (arg10 : Memref sig .tc .vmem S10 .f32) (harg10 : arg10.IsWhole) (arg11 : Memref sig .tc .vmem S1x10 .f32) (harg11 : arg11.IsWhole) (arg12 : Memref sig .tc .vmem S1x64 .f32) (harg12 : arg12.IsWhole) (hc0 : ¬cond1_0 i) (hc1 : cond1_1 i)
    (x0 : Vec F S5000x64 .f32) (x1 : Vec F S5000x64 .f32) (x2 : Vec F S5000x1 .f32) (x3 : Vec F S64x64 .f32) (x4 : Vec F S64 .f32) (x5 : Vec F S64x64 .f32) (x6 : Vec F S64x64 .f32) (x7 : Vec F S64 .f32) (x8 : Vec F S64x10 .f32) (x9 : Vec F S10 .f32) (xs : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k1_pay1 (k1_pay3 x2 x1 x0 x3 x5 x4 xs) x6 x7 x8 x9) ∗ owns (c : Thread nD τ) arg12 fullShare (k1_pay3 x2 x1 x0 x3 x5 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    rw [View.read_writes_eq_canon _ _ _ (fun y => ⟨_, List.Mem.head _, View.mem_set_unit_zero unitOff2_r1 inb_S1x10_S1x10_0_0 y⟩),
      View.canon_unit_zero (S := S1x10) unitOff2_r1, View.readCov_unit_zero (S := S1x64) _ unitOff2_r1]
    simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]
  iexists _; isplitr
  swap; · iexact HS
  ipureintro
  sl_unfold_run_names
  rw [View.read_writes_eq_canon _ _ _ (fun y => ⟨_, List.Mem.head _, View.mem_set_unit_zero unitOff2_r1 inb_S1x64_S1x64_0_0 y⟩),
    View.canon_cons_unit_zero (S := S1x64) unitOff2_r1]
  simp only [View.readAt_eq_ld, View.ld_unit_zero (S := S5000x1) unitOff2_r1, View.ld_unit_zero (S := S5000x64) unitOff2_r1, View.ld_unit_zero (S := S64x64) unitOff2_r1, View.ld_unit_zero (S := S64) unitOff1_r1, View.ld_unit_zero (S := S64x10) unitOff2_r1, View.ld_unit_zero (S := S10) unitOff1_r1, View.ld_unit_zero (S := S1x64) unitOff2_r1]

end Cert.KernelIdeal.Hand

end
-- ==== Proof.KI.Region1.lean ====
/- Pipeline 1's half of the frame: what the carried accumulator holds after each point (the column sums of the
   second layer's tiles, added up in grid order), what the output block holds after the last point (the head of the
   accumulator), the proof data, and the body obligation at every point. -/
import proofs.«116514_j64527588655232_2_alg».proof.Proof.KI.Region1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-! ## What the accumulator and the output hold -/

/-- The accumulator after point `n`: at the first point the tile's column sums added to the zero fill; at a later
    point added to what the point before left. -/
def acc1 (c : Dev nD) : (n : ℕ) → n < cfg1.N → Vec F S1x64 .f32
  | 0, hn => k1_pay3 (iblk1 V c 2 ⟨0, hn⟩) (iblk1 V c 1 ⟨0, hn⟩) (iblk1 V c 0 ⟨0, hn⟩) (iblk1 V c 3 ⟨0, hn⟩) (iblk1 V c 5 ⟨0, hn⟩) (iblk1 V c 4 ⟨0, hn⟩) k1_pay2
  | n + 1, hn => k1_pay3 (iblk1 V c 2 ⟨n + 1, hn⟩) (iblk1 V c 1 ⟨n + 1, hn⟩) (iblk1 V c 0 ⟨n + 1, hn⟩) (iblk1 V c 3 ⟨n + 1, hn⟩) (iblk1 V c 5 ⟨n + 1, hn⟩) (iblk1 V c 4 ⟨n + 1, hn⟩) (acc1 c n (Nat.lt_of_succ_lt hn))

/-- At the first point. -/
theorem acc1_first (c : Dev nD) (t : Fin cfg1.N) (h : t.val = 0) :
    acc1 V c t.val t.isLt = k1_pay3 (iblk1 V c 2 t) (iblk1 V c 1 t) (iblk1 V c 0 t) (iblk1 V c 3 t) (iblk1 V c 5 t) (iblk1 V c 4 t) k1_pay2 := by
  obtain ⟨n, hn⟩ := t
  cases n with
  | zero => rfl
  | succ n => exact absurd h (Nat.succ_ne_zero n)

/-- At a later point. -/
theorem acc1_later (c : Dev nD) (t : Fin cfg1.N) (h : t.val ≠ 0) :
    acc1 V c t.val t.isLt = k1_pay3 (iblk1 V c 2 t) (iblk1 V c 1 t) (iblk1 V c 0 t) (iblk1 V c 3 t) (iblk1 V c 5 t) (iblk1 V c 4 t) (acc1 V c (t.val - 1) (Nat.lt_of_le_of_lt (Nat.sub_le _ _) t.isLt)) := by
  obtain ⟨n, hn⟩ := t
  cases n with
  | zero => exact absurd rfl h
  | succ n => rfl

/-- The grid's last point. -/
abbrev tLast1 : Fin cfg1.N := ⟨19, by decide⟩

/-- The output block after the last point: the head (mean, two dense layers, softmax) of the accumulator. -/
def outLast (c : Dev nD) : Vec F S1x10 .f32 :=
  k1_pay1 (acc1 V c 19 (by decide)) (iblk1 V c 6 tLast1) (iblk1 V c 7 tLast1) (iblk1 V c 8 tLast1) (iblk1 V c 9 tLast1)

/-! ## The region invariant -/

/-- Before point `n`: the class's invariant before the first point; afterwards the other pipeline's buffers, the
    accumulator at what the point before left, and the generator register at some state. -/
def PhiS1 (c : Dev nD) : (n : ℕ) → n ≤ cfg1.N → sProp 𝕄
  | 0, _ => Pipeline.ΦA spec1 c
  | n + 1, hn => iprop(withRest1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(withRest1 c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(withRest1 c (owns (c : Thread nD τ) scM1 fullShare (acc1 V c (n - 1) (by omega))) ∗ (∃ r, prngReg c r)) := by
  cases n with
  | zero => exact absurd rfl hz
  | succ n => rfl

/-! ## The proof data -/

/-- The proof data of pipeline 1 on core `c`: the arrays as the region finds them; after the body each input's buffer
    at its block and the output's at the head of the final accumulator (read at the last point only: elsewhere the
    window is idle and not written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outLast V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outLast V c := by dsimp only [dat1]

/-- The output block at the last point. -/
theorem after1_10_last (c : Dev nD) (t : Fin cfg1.N) (ht : t.val = 19) : (dat1 V c).after 10 t = outLast V c :=
  after1_10 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- The output block in terms of the last point's own blocks and what the point before left. -/
theorem outLast_eq (c : Dev nD) (t : Fin cfg1.N) (ht : t.val = 19) :
    outLast V c = k1_pay1 (k1_pay3 (iblk1 V c 2 t) (iblk1 V c 1 t) (iblk1 V c 0 t) (iblk1 V c 3 t) (iblk1 V c 5 t) (iblk1 V c 4 t) (acc1 V c (t.val - 1) (Nat.lt_of_le_of_lt (Nat.sub_le _ _) t.isLt))) (iblk1 V c 6 t) (iblk1 V c 7 t) (iblk1 V c 8 t) (iblk1 V c 9 t) := by
  obtain rfl : t = tLast1 := Fin.ext ht
  unfold outLast
  rw [show acc1 V c 19 (by decide) = acc1 V c tLast1.val tLast1.isLt from rfl, acc1_later V c tLast1 (by decide)]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4800000 in
/-- The body at any point: the inputs' memrefs hold their blocks; the closed forms say which case the point is in, so
    that case's run applies; the invariant hands the body the accumulator at what the point before left (at anything
    at the first point) and takes it back at this point's contents; the output window is handed back untouched
    except at the last point, where it is left at the head of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  rw [show (dat1 V c).leavesExact 7 t = owns (c : Thread nD τ) (st1_7 t) fullShare ((dat1 V c).after 7 t) from rfl, after1_7]
  rw [show (dat1 V c).leavesExact 8 t = owns (c : Thread nD τ) (st1_8 t) fullShare ((dat1 V c).after 8 t) from rfl, after1_8]
  rw [show (dat1 V c).leavesExact 9 t = owns (c : Thread nD τ) (st1_9 t) fullShare ((dat1 V c).after 9 t) from rfl, after1_9]
  have hN : t.val < 20 := lt_of_lt_of_eq t.isLt (show cfg1.N = 20 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 10 t (idleAt1_10 t hc1) (noFlush1_10 t hc1)]
    rw [acc1_first V c t h0]
    rw [PhiS1_castSucc V c t, PhiS1_zero V c _ _ h0, PhiA1_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HR' := (withRest1_split c _) $$ HR
    icases HR' with ⟨HR, HS⟩
    iapply (kernelRun1_A c (grid1.coords t) _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HR HS Hg]
    · isplitl [HR HS]
      · iapply (withRest1_join c _)
        isplitl [HR]; · iexact HR
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hc0 : ¬cond1_0 (grid1.coords t) := fun h => h0 ((hcond1_0 t).mp h)
    by_cases h1 : t.val = 19
    · have hc1 : cond1_1 (grid1.coords t) := (hcond1_1 t).mpr h1
      rw [show (dat1 V c).leavesExact 10 t = owns (c : Thread nD τ) (st1_10 t) fullShare ((dat1 V c).after 10 t) from by
        unfold Dat.leavesExact; rw [liveAt1_10 t hc1], after1_10, outLast_eq V c t h1]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HR' := (withRest1_split c _) $$ HR
      icases HR' with ⟨HR, HS⟩
      iapply (kernelRun1_C c (grid1.coords t) _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HR HS Hg]
      · isplitl [HR HS]
        · iapply (withRest1_join c _)
          isplitl [HR]; · iexact HR
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬cond1_1 (grid1.coords t) := fun h => h1 ((hcond1_1 t).mp h)
      rw [Dat.leavesExact_idle (dat1 V c) 10 t (idleAt1_10 t hc1) (noFlush1_10 t hc1)]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HR' := (withRest1_split c _) $$ HR
      icases HR' with ⟨HR, HS⟩
      iapply (kernelRun1_B c (grid1.coords t) _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HR HS Hg]
      · isplitl [HR HS]
        · iapply (withRest1_join c _)
          isplitl [HR]; · iexact HR
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := (withRest1_split c _) $$ HR
    icases HR' with ⟨HR, HS⟩
    iapply (withRest1_join c _)
    isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region1

end Cert.KernelIdeal.Hand

end
-- ==== Proof.KI.Run.lean ====
/-
  The idealized kernel program's run: @main as host operations, the first kernel, host operations, the second kernel.

  The contents of a core's buffers are followed through @main as a fold from the launch memory: a stretch of host
  operations applies them in order; a kernel region replaces the arrays of its windows by what the pipeline's
  write-backs leave and keeps every other buffer. Each region enters with every unscoped buffer of the core held at the
  contents before it and leaves with them held at the contents after it, so the four segments chain, and at the end every
  unscoped buffer is read at the last boundary's contents. The argument arrays are never written: a region reads one
  through an input window or not at all, and no host operation writes one.
-/
import proofs.«116514_j64527588655232_2_alg».proof.Proof.Gen.KernelIdeal.Launch
import proofs.«116514_j64527588655232_2_alg».proof.Proof.Gen.KernelIdeal.Skeleton
import proofs.«116514_j64527588655232_2_alg».proof.Proof.Gen.KernelIdeal.Points
import proofs.«116514_j64527588655232_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116514_j64527588655232_2_alg».proof.Proof.KI.Region0
import proofs.«116514_j64527588655232_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The contents of the core's buffers at each boundary of @main

@main is: host operations, region 0, host operations, region 1. The buffers' contents are followed through it as a
fold from the launch memory: a stretch of host operations applies them in order; a region replaces its windows' arrays by
what the pipeline's write-backs leave and keeps every other buffer. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no operation of the first stretch writes is as launched after it, -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- and one the second stretch does not write is, after it, as region 0 left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ## The arguments end as launched

An argument is read by a region through an input window (whose array the pipeline never writes) or not at all, and no
host operation writes it: the fold at its buffer walks back to the launch memory. -/

/-- No host operation writes `main_arg0` and no region changes it: at the end it holds its launch contents. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

/-- No host operation writes `main_arg1` and no region changes it: at the end it holds its launch contents. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- No host operation writes `main_arg2` and no region changes it: at the end it holds its launch contents. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide : main_arg2 ∉ hostOps0_W)
    _ = m ((c : Thread nD τ).loc main_arg2) := rfl

/-- No host operation writes `main_arg3` and no region changes it: at the end it holds its launch contents. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_writes_sub hostOps0 _ hostOps0_writes (by decide : main_arg3 ∉ hostOps0_W)
    _ = m ((c : Thread nD τ).loc main_arg3) := rfl

/-- No host operation writes `main_arg4` and no region changes it: at the end it holds its launch contents. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_writes_sub hostOps0 _ hostOps0_writes (by decide : main_arg4 ∉ hostOps0_W)
    _ = m ((c : Thread nD τ).loc main_arg4) := rfl

/-- No host operation writes `main_arg5` and no region changes it: at the end it holds its launch contents. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- No host operation writes `main_arg6` and no region changes it: at the end it holds its launch contents. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-- No host operation writes `main_arg7` and no region changes it: at the end it holds its launch contents. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- No host operation writes `main_arg8` and no region changes it: at the end it holds its launch contents. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 6).trans (((dat1 (V3 m ρ) c).arrAt_in 6 rfl _).trans (A_eq1 (V3 m ρ) c 6))
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-- No host operation writes `main_arg9` and no region changes it: at the end it holds its launch contents. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 7).trans (((dat1 (V3 m ρ) c).arrAt_in 7 rfl _).trans (A_eq1 (V3 m ρ) c 7))
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-- No host operation writes `main_arg10` and no region changes it: at the end it holds its launch contents. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 8).trans (((dat1 (V3 m ρ) c).arrAt_in 8 rfl _).trans (A_eq1 (V3 m ρ) c 8))
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-- No host operation writes `main_arg11` and no region changes it: at the end it holds its launch contents. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 9).trans (((dat1 (V3 m ρ) c).arrAt_in 9 rfl _).trans (A_eq1 (V3 m ρ) c 9))
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-! ## The proof data family, the thread state, the segments -/

abbrev adm : (p : Fin 2) → (pcfgs (F := F) p).Adm := fun p => (cfgs p).toPCfg_adm
/-- Each pipeline's proof data at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 as a segment: entered with every unscoped buffer at the contents before it, left with them at the contents
    after it. Its windows' arrays are split out of the unscoped buffers on entry and put back, at what the write-backs
    left, on exit; the generator register rides in the region's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it. Its windows' arrays are split out of the unscoped buffers on entry and put back, at what the write-backs
    left, on exit; the generator register rides in the region's invariant; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the run, read at the twelve argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

end Cert.KernelIdeal.Hand

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«116514_j64527588655232_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«116514_j64527588655232_2_alg».proof.Proof.LibMatmulPlain
import proofs.«116514_j64527588655232_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibSageLayer.lean ====
/-
  One graph-convolution layer with mean aggregation, on the extended reals, for any extents.

  For a matrix a [n, k] of aggregated neighbour features, the nodes' own features x [n, k], two weights wl, wr [k, h]
  and a bias b [h], the layer's result has entry (p, q)

      max ( Σ_j a(p, j) · wl(j, q)  +  Σ_j x(p, j) · wr(j, q)  +  b(q) ,  0 ).

  Row p of the result depends on row p of a and of x only, so a block of consecutive rows of the result is the layer
  of the same rows of a and x (layer_rows). The matrix unit's spelling (both operands of each product cast to a
  narrower float format first, the identity on the extended reals; the products taken into zero accumulators; the
  bias laid out as one row and repeated down the rows; the maximum with a repeated zero) and the host's spelling
  (two general products, the bias broadcast in two steps, the maximum with a broadcast zero constant) both denote
  it. No law of arithmetic is used beyond the definitions: the two spellings add their three terms in the same
  order.
-/
import proofs.«116514_j64527588655232_2_alg».proof.Proof.LibDenseLayers

noncomputable section

namespace Cert.Sage

open Idealize.ShloMosaic Idealize.ShloMosaic.ValueIdx Cert.LibMatmulPlain Cert.Layers

variable {n k h : Nat}

/-- a · wl + x · wr + b, rectified. -/
def layer (a x : Mat n k) (wl wr : Mat k h) (b : Row h) : Mat n h :=
  rect fun i => (mm a wl i + mm x wr i) + bias n b i

/-- The layer read at entry (p, q). -/
theorem layer_apply (a x : Mat n k) (wl wr : Mat k h) (b : Row h) (p : Fin n) (q : Fin h) :
    layer a x wl wr b (ix2 p q)
      = max ((∑ j : Fin k, a (ix2 p j) * wl (ix2 j q) + ∑ j : Fin k, x (ix2 p j) * wr (ix2 j q)) + b (ix1 q))
          (Ideal.ofBits .f32 0x00000000#32) := rfl

/-- Row p' of the layer of two matrices whose rows p' are rows p of a and of x is row p of the layer of a and x. -/
theorem layer_rows {n' : Nat} (a x : Mat n k) (a' x' : Mat n' k) (wl wr : Mat k h) (b : Row h)
    (p' : Fin n') (p : Fin n) (ha : ∀ j, a' (ix2 p' j) = a (ix2 p j)) (hx : ∀ j, x' (ix2 p' j) = x (ix2 p j))
    (q : Fin h) :
    layer a' x' wl wr b (ix2 p' q) = layer a x wl wr b (ix2 p q) := by
  rw [layer_apply, layer_apply]
  simp only [ha, hx]

/-- The matrix unit's spelling of the layer. -/
theorem tileLayer_eq {ψ : FTy} (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (hψ : ψ.bits < FTy.f32.bits) (hc : (⟨1, ![h]⟩ : Shape).ShapeCasts ⟨2, ![1, h]⟩)
    (hb : (⟨2, ![1, h]⟩ : Shape).Broadcasts ⟨2, ![n, h]⟩) :
    maximumf
        (addf
          (addf (matmul d none (truncf ψ a hψ) (truncf ψ wl hψ) (constant ⟨2, ![n, h]⟩ .f32 0x00000000#32))
            (matmul d none (truncf ψ x hψ) (truncf ψ wr hψ) (constant ⟨2, ![n, h]⟩ .f32 0x00000000#32)))
          (broadcastTo ⟨2, ![n, h]⟩ (shapeCast ⟨2, ![1, h]⟩ b hc) hb))
        (broadcast ⟨2, ![n, h]⟩ (Scalar.ofBits (F := Ideal) .f32 0x00000000#32))
      = layer a x wl wr b := by
  rw [tileRect_eq, tileBias_eq b hc hb, tileMm_eq d wf hd (truncf ψ a hψ) wl hψ, tileMm_eq d wf hd (truncf ψ x hψ) wr hψ]
  rfl

/-- The host's spelling of the layer. -/
theorem hostLayer_eq (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![]) :
    maximumf
        (addf (addf (Host.dotGeneral d none a wl) (Host.dotGeneral d none x wr))
          (broadcastInDim ⟨2, ![n, h]⟩ ![0, 1] h2 (broadcastInDim ⟨2, ![1, h]⟩ ![1] h1 b)))
        (broadcastInDim ⟨2, ![n, h]⟩ ![] h0 (constant (F := Ideal) ⟨0, ![]⟩ .f32 0x00000000#32))
      = layer a x wl wr b := by
  rw [hostRect_eq _ h0, hostBias_eq b h1 h2, hostMm_eq d wf hd a wl, hostMm_eq d wf hd x wr]
  rfl

end Cert.Sage

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«116514_j64527588655232_2_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.Spec.lean ====
/-
  What the network computes, as index formulas on the extended reals.

  Two graph-convolution layers with mean aggregation, the mean of the second layer's rows, and a two-layer head ending
  in a row softmax. The neighbour aggregation (a gather of rows followed by a segment sum) enters only as given
  functions: agg8 is the aggregate of the input features, agg64 the aggregation applied to a hidden matrix, deg the
  number of incoming edges of each node. A node's aggregate is divided by max(deg, 1).

  The second layer's rows are summed over all n nodes and multiplied by a factor c (1/n for the mean). Since the
  sum runs over n = t * r rows it is also the sum over t consecutive blocks of r rows of each block's column sums;
  addition on the extended reals is commutative and associative, so no entry needs to be finite for that.
-/
import Idealize.ShloMosaic.Lib.ValueIdx
import Idealize.ShloMosaic.PureOps.Ideal
import proofs.«116514_j64527588655232_2_alg».proof.Proof.LibSageLayer
import proofs.«116514_j64527588655232_2_alg».proof.Proof.LibSoftmaxRows

noncomputable section

open scoped BigOperators

namespace Cert.Spec

open Idealize.ShloMosaic Idealize.ShloMosaic.ValueIdx Cert.Layers Cert.Sage

variable {n k h : Nat}

/-- The value of the f32 word of 1.0. -/
abbrev one : EReal := Ideal.ofBits .f32 0x3F800000#32

/-- Each row of s divided by max(d, 1) of that row's node. -/
def meanOf (s : Mat n k) (d : Row n) : Mat n k := fun i => Ideal.div (s i) (max (d (ix1 (i 0))) one)

theorem meanOf_apply (s : Mat n k) (d : Row n) (p : Fin n) (q : Fin k) :
    meanOf s d (ix2 p q) = Ideal.div (s (ix2 p q)) (max (d (ix1 p)) one) := rfl

/-- An [n, 1] column read as a vector of n entries. -/
def colVec (d : Mat n 1) : Row n := fun i => d (ix2 (i 0) 0)

theorem colVec_apply (d : Mat n 1) (p : Fin n) : colVec d (ix1 p) = d (ix2 p 0) := rfl

/-- The column sums of a matrix, kept as one row. -/
def colSum (a : Mat n k) : Mat 1 k := fun i => ∑ p : Fin n, a (ix2 p (i 1))

theorem colSum_apply (a : Mat n k) (u : Fin 1) (q : Fin k) : colSum a (ix2 u q) = ∑ p : Fin n, a (ix2 p q) := rfl

/-- The head: the pooled row scaled by c, a rectified dense layer, a dense layer, the row softmax. -/
def head {o : Nat} (acc : Mat 1 h) (c : EReal) (w1 : Mat h h) (b1 : Row h) (w2 : Mat h o) (b2 : Row o) : Mat 1 o :=
  fun i => Cert.Lib.SoftmaxRows.softmax
    (fun q : Fin o => dense (rect (dense (fun j => acc j * c) w1 b1)) w2 b2 (ix2 (i 0) q)) (i 1)

/-- The second layer's output from the first layer's. -/
def second (agg64 : Mat n h → Mat n h) (deg : Row n) (h1 : Mat n h) (w2l w2r : Mat h h) (b2 : Row h) : Mat n h :=
  layer (meanOf (agg64 h1) deg) h1 w2l w2r b2

/-- The first layer's output. -/
def first (x agg8 : Mat n k) (deg : Row n) (w1l w1r : Mat k h) (b1 : Row h) : Mat n h :=
  layer (meanOf agg8 deg) x w1l w1r b1

/-- The whole network. -/
def net {o : Nat} (x agg8 : Mat n k) (deg : Row n) (agg64 : Mat n h → Mat n h) (w1l w1r : Mat k h) (b1 : Row h)
    (w2l w2r : Mat h h) (b2 : Row h) (c : EReal) (f1 : Mat h h) (g1 : Row h) (f2 : Mat h o) (g2 : Row o) : Mat 1 o :=
  head (colSum (second agg64 deg (first x agg8 deg w1l w1r b1) w2l w2r b2)) c f1 g1 f2 g2

end Cert.Spec

end
-- ==== Proof.KI.Value0.lean ====
/-
  The first layer's output array after the first region, as one function of the arrays the region finds.

  The grid has 20 points; point t works on rows 5000 t … 5000 t + 4999. At point t the three row-tiled inputs (the
  node features, the summed neighbour features, the in-degrees) are those rows of their arrays, and the two weights
  and the bias are their whole arrays. The layer's row p depends on row p of the features and of the neighbour mean
  only, and the neighbour mean's row p on row p of the sums and on node p's degree only. So the layer of the tile is
  rows 5000 t … 5000 t + 4999 of the layer of the whole arrays: what point t writes back is block t of that one
  whole-array function, and the 20 blocks cover the 100000 rows.
-/
import proofs.«116514_j64527588655232_2_alg».proof.Proof.KI.Region0
import proofs.«116514_j64527588655232_2_alg».proof.Proof.Spec

set_option maxRecDepth 16384

noncomputable section

namespace Cert.KernelIdeal.Val

open Cert.KernelIdeal Cert.KernelIdeal.Gen Cert.KernelIdeal.Hand Cert.Layers Cert.Sage Cert.Spec Idealize.ShloMosaic Idealize.ShloMosaic.ValueIdx
open Idealize.ShloMosaic.TcCoe
open Idealize.ShloMosaic.Pipeline (Dat Cfg Window)

/-! ## The layer on a tile of rows -/

/-- Row p' of the layer of a tile is row p of the layer of the whole matrices when row p' of the tile's sums,
    features and degree column is row p of the whole ones, the weights and the bias being the same. -/
theorem layer_tile {n n' k h : Nat} (s x : Mat n k) (d : Mat n 1) (s' x' : Mat n' k) (d' : Mat n' 1)
    (wl wr wl' wr' : Mat k h) (b b' : Row h) (p' : Fin n') (p : Fin n) (q : Fin h)
    (hs : ∀ j, s' (ix2 p' j) = s (ix2 p j)) (hx : ∀ j, x' (ix2 p' j) = x (ix2 p j)) (hd : d' (ix2 p' 0) = d (ix2 p 0))
    (hwl : wl' = wl) (hwr : wr' = wr) (hb : b' = b) :
    layer (meanOf s' (colVec d')) x' wl' wr' b' (ix2 p' q) = layer (meanOf s (colVec d)) x wl wr b (ix2 p q) := by
  subst hwl hwr hb
  refine layer_rows _ _ _ _ _ _ _ p' p (fun j => ?_) hx q
  rw [meanOf_apply, meanOf_apply, colVec_apply, colVec_apply, hs, hd]

section Region0
-- what the tensor core's buffers hold when the region is entered
variable (V : (c : Dev nD) → (b : Ref sig .tc) → Buf (Elt Ideal) ((c : Thread nD τ).loc b))

/-- The kernel's stored value on the extended reals is the layer of the tile it loaded. -/
def Pay0 : Prop := ∀ (v0 : Vec Ideal S5000x1 .f32) (v2 v8 : Vec Ideal S5000x8 .f32) (v11 v13 : Vec Ideal S8x64 .f32) (v15 : Vec Ideal S64 .f32),
  Gen.k0_pay1 (F := Ideal) v0 v2 v8 v11 v13 v15 = layer (meanOf v2 (colVec v0)) v8 v11 v13 v15

/-- The first layer on the whole arrays as the region finds them: the node features, the summed neighbour
    features divided by the degrees, the two weights and the bias. -/
def H1 (c : Dev nD) : Mat 100000 64 :=
  layer (meanOf (V c main_v18) (colVec (V c main_v8))) (V c main_arg0) (V c main_arg2) (V c main_arg4) (V c main_arg3)

/-! ## Where a block sits in its array -/

/-- The index maps over the grid: at point t the row-tiled windows (features, sums, degrees, output) are at block
    row t, block column 0; the weights and the bias are at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point's rows lie inside the array. -/
theorem row_lt (t : Fin cfg0.N) (r : Fin 5000) : 5000 * t.val + r.val < 100000 := by
  have ht : t.val < 20 := Nat.lt_of_lt_of_eq t.isLt (show cfg0.N = 20 from N_0)
  have hr := r.isLt
  omega

/-- Entry (r, q) of the features' block at point t is entry (5000 t + r, q) of the features. -/
theorem iblk0_0_apply (c : Dev nD) (t : Fin cfg0.N) (r : Fin 5000) (q : Fin 8) :
    (iblk0 V c 0 t : Mat 5000 8) (ix2 r q) = (V c main_arg0 : Mat 100000 8) (ix2 ⟨5000 * t.val + r.val, row_lt t r⟩ q) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 8 + 1 * q.val = q.val; rw [e1]; omega

/-- Entry (r, q) of the sums' block at point t is entry (5000 t + r, q) of the sums. -/
theorem iblk0_1_apply (c : Dev nD) (t : Fin cfg0.N) (r : Fin 5000) (q : Fin 8) :
    (iblk0 V c 1 t : Mat 5000 8) (ix2 r q) = (V c main_v18 : Mat 100000 8) (ix2 ⟨5000 * t.val + r.val, row_lt t r⟩ q) := by
  obtain ⟨-, -, e0, e1, -⟩ := idx_facts t
  unfold iblk0
  rw [View.read_apply]
  show V c main_v18 _ = V c main_v18 _
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 8 + 1 * q.val = q.val; rw [e1]; omega

/-- Entry (r, 0) of the degrees' block at point t is entry (5000 t + r, 0) of the degree column. -/
theorem iblk0_2_apply (c : Dev nD) (t : Fin cfg0.N) (r : Fin 5000) (q : Fin 1) :
    (iblk0 V c 2 t : Mat 5000 1) (ix2 r q) = (V c main_v8 : Mat 100000 1) (ix2 ⟨5000 * t.val + r.val, row_lt t r⟩ q) := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t (0 : Fin 2) * 5000 + 1 * r.val = 5000 * t.val + r.val; rw [e0]; omega
  | ⟨1, _⟩ => show win0_2.index t (1 : Fin 2) * 1 + 1 * q.val = q.val; rw [e1]; omega

/-- The first weight's one block is the whole weight. -/
theorem iblk0_3_eq (c : Dev nD) (t : Fin cfg0.N) : (iblk0 V c 3 t : Mat 8 64) = (V c main_arg2 : Mat 8 64) := by
  obtain ⟨-, -, -, -, -, -, e0, e1, -⟩ := idx_facts t
  funext x
  unfold iblk0
  rw [View.read_apply]
  show V c main_arg2 _ = V c main_arg2 _
  congr 1
  funext a
  apply Fin.ext
  match a with
  | ⟨0, _⟩ => show win0_3.index t (0 : Fin 2) * 8 + 1 * (x 0).val = (x 0).val; rw [e0]; omega
  | ⟨1, _⟩ => show win0_3.index t (1 : Fin 2) * 64 + 1 * (x 1).val = (x 1).val; rw [e1]; omega

/-- The bias's one block is the whole bias. -/
theorem iblk0_4_eq (c : Dev nD) (t : Fin cfg0.N) : (iblk0 V c 4 t : Row 64) = (V c main_arg3 : Row 64) := by
  obtain ⟨-, -, -, -, -, -, -, -, e0, -⟩ := idx_facts t
  funext x
  unfold iblk0
  rw [View.read_apply]
  show V c main_arg3 _ = V c main_arg3 _
  congr 1
  funext a
  apply Fin.ext
  match a with
  | ⟨0, _⟩ => show win0_4.index t (0 : Fin 1) * 64 + 1 * (x 0).val = (x 0).val; rw [e0]; omega

/-- The second weight's one block is the whole weight. -/
theorem iblk0_5_eq (c : Dev nD) (t : Fin cfg0.N) : (iblk0 V c 5 t : Mat 8 64) = (V c main_arg4 : Mat 8 64) := by
  obtain ⟨-, -, -, -, -, -, -, -, -, e0, e1, -⟩ := idx_facts t
  funext x
  unfold iblk0
  rw [View.read_apply]
  show V c main_arg4 _ = V c main_arg4 _
  congr 1
  funext a
  apply Fin.ext
  match a with
  | ⟨0, _⟩ => show win0_5.index t (0 : Fin 2) * 8 + 1 * (x 0).val = (x 0).val; rw [e0]; omega
  | ⟨1, _⟩ => show win0_5.index t (1 : Fin 2) * 64 + 1 * (x 1).val = (x 1).val; rw [e1]; omega

/-- Entry (r, q) of the output's block at point t sits at (5000 t + r, q) of the output array. -/
theorem blk6_emb (t : Fin cfg0.N) (r : Fin 5000) (q : Fin 64) :
    ((cfg0.win 6).blk t).view.emb (ix2 r q : S5000x64.Idx) = (ix2 ⟨5000 * t.val + r.val, row_lt t r⟩ q : S100000x64.Idx) := by
  obtain ⟨-, -, -, -, -, -, -, -, -, -, -, e0, e1⟩ := idx_facts t
  funext a
  apply Fin.ext
  match a with
  | ⟨0, _⟩ => show win0_6.index t (0 : Fin 2) * 5000 + 1 * r.val = 5000 * t.val + r.val; rw [e0]; omega
  | ⟨1, _⟩ => show win0_6.index t (1 : Fin 2) * 64 + 1 * q.val = q.val; rw [e1]; omega

/-! ## What a point writes back -/

/-- The layer of the tile at point t, entry by entry, is the layer of the whole arrays at the tile's rows. -/
theorem tile_apply (c : Dev nD) (t : Fin cfg0.N) (r : Fin 5000) (q : Fin 64) :
    layer (meanOf (iblk0 V c 1 t : Mat 5000 8) (colVec (iblk0 V c 2 t : Mat 5000 1))) (iblk0 V c 0 t : Mat 5000 8)
        (iblk0 V c 3 t : Mat 8 64) (iblk0 V c 5 t : Mat 8 64) (iblk0 V c 4 t : Row 64) (ix2 r q)
      = H1 V c (ix2 ⟨5000 * t.val + r.val, row_lt t r⟩ q) :=
  layer_tile _ _ _ _ _ _ _ _ _ _ _ _ r ⟨5000 * t.val + r.val, row_lt t r⟩ q
    (fun j => iblk0_1_apply V c t r j) (fun j => iblk0_0_apply V c t r j) (iblk0_2_apply V c t r 0)
    (iblk0_3_eq V c t) (iblk0_5_eq V c t) (iblk0_4_eq V c t)

/-- What point t writes back is block t of the first layer of the whole arrays. -/
theorem flushed0_6_eq (hp : Pay0) (c : Dev nD) (t : Fin cfg0.N) :
    (dat0 V c).flushed 6 t = ((cfg0.win 6).blk t).view.read (Elt Ideal) (H1 V c) := by
  show (cfg0.win 6).cut (grid0.coords t) ((dat0 V c).after 6 t) = _
  rw [after0_6, out0_6_eq, hp]
  funext j
  obtain ⟨r, q, rfl⟩ : ∃ (r : Fin 5000) (q : Fin 64), j = (ix2 r q : S5000x64.Idx) := ⟨j 0, j 1, eq_ix2 j⟩
  rw [View.read_apply]
  show layer _ _ _ _ _ (ix2 r q) = H1 V c (((cfg0.win 6).blk t).view.emb (ix2 r q : S5000x64.Idx))
  rw [blk6_emb]
  exact tile_apply V c t r q

/-! ## The array after the region -/

/-- An index of the output array is in point t's block iff each coordinate is in the block's range on its axis. -/
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v19).slice (win0_6.rect t)).set ↔ _
  rw [View.set_slice_whole, Rect.mem_set_unit]
  exact Iff.rfl

/-- Row p of the output is written back by point p / 5000: the 20 blocks cover the array, which therefore ends
    holding the first layer of the whole arrays. -/
theorem final0_6 (hp : Pay0) (c : Dev nD) : (dat0 V c).arrAt 6 cfg0.N = H1 V c :=
  (dat0 V c).arrAt_eq_of_cover 6 (H1 V c) (fun t _ => flushed0_6_eq V hp c t) fun i => by
    have hi0 : (i 0).val < 100000 := (i 0).isLt
    have hi1 : (i 1).val < 64 := (i 1).isLt
    have hN : cfg0.N = 20 := N_0
    let t : Fin cfg0.N := ⟨(i 0).val / 5000, by rw [hN]; omega⟩
    have ht : t.val = (i 0).val / 5000 := rfl
    obtain ⟨-, -, -, -, -, -, -, -, -, -, -, e0, e1⟩ := idx_facts t
    refine ⟨t, flush0_6 t, ?_⟩
    rw [mem_blk6]
    intro a
    match a with
    | ⟨0, _⟩ => show win0_6.index t (0 : Fin 2) * 5000 ≤ (i 0).val ∧ (i 0).val < win0_6.index t (0 : Fin 2) * 5000 + 5000; rw [e0, ht]; omega
    | ⟨1, _⟩ => show win0_6.index t (1 : Fin 2) * 64 ≤ (i 1).val ∧ (i 1).val < win0_6.index t (1 : Fin 2) * 64 + 64; rw [e1]; omega

end Region0

end Cert.KernelIdeal.Val

end
-- ==== Proof.LibColumnSums.lean ====
/-
  Column sums kept as a row, read at an index.

  A reduction over the FIRST axis of an [a, b] array gives a [b] vector; reshaped to a [1, b] row, its entry (0, q) is,
  on the extended reals, the sum over the a rows of column q. For any extents and float format.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.ColumnSums

open Idealize.ShloMosaic Idealize.ShloMosaic.ValueIdx

/-- The sums of an [a, b] array's columns, on the extended reals, kept as a row: entry (0, q) of the row is the sum
    over the `a` coordinates of column `q`. -/
theorem sumRow_apply {a b : Nat} {φ : FTy} (v : FVec Ideal ⟨2, ![a, b]⟩ φ) (acc : BitVec φ.bits)
    (hr : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (q : Fin b) :
    shapeCast ⟨2, ![1, b]⟩ (multiReduction .add [0] ⟨1, ![b]⟩ v acc hr hφ hacc) hc (ix2 (0 : Fin 1) q)
      = ∑ k : Fin a, v (ix2 k q) := by
  refine (shapeCast_a_1a_apply _ hc 0 q).trans ?_
  refine (Ideal.multiReduction_add_single v acc hr hφ hacc (ix1 q)).trans ?_
  refine Finset.sum_congr rfl fun k _ => ?_
  exact congrArg v (funext fun d => Fin.ext (by match d with | ⟨0, _⟩ => rfl | ⟨1, _⟩ => rfl))

end Cert.Lib.ColumnSums

end
-- ==== Proof.LibSoftmaxRowsRemax.lean ====
/-
  The softmax of each row of an [a, b] array, as a vector program spells it when it takes the maximum of the row
  maxima with minus infinity once more before subtracting them, read at an entry on the extended reals, for any
  extents.

  `softmaxFrom s m` is the program from a given vector m of row shifts onwards: the shifts kept as an [a, 1] column and
  broadcast over the b columns, subtracted from s, exponentiated, each row of exponentials summed and the sums kept
  as a column and broadcast, and the quotient. With m the row maxima from minus infinity it is the row softmax
  (`softmaxRows_apply`); and the maximum of those maxima with minus infinity is the maxima themselves (`remax_eq`:
  the fold already started at minus infinity), so the program with the extra maximum is the row softmax as well:
  `softmaxRemax_apply` at an entry, `softmaxRemax_eq` for the whole array.
-/
import Idealize.ShloMosaic.Lib.Pipeline.Value
import Idealize.ShloMosaic.Lib.ValueIdx
import Idealize.ShloMosaic.PureOps.Ideal.Laws
import proofs.«116514_j64527588655232_2_alg».proof.Proof.LibSoftmaxRows

noncomputable section

open scoped BigOperators

namespace Cert.Lib.SoftmaxRows

open Idealize.ShloMosaic Idealize.ShloMosaic.ValueIdx

variable {a b : Nat}

/-- The row softmax program from a vector m of row shifts onwards: exp (s - m) over its row sums. -/
def softmaxFrom (s : FVec Ideal ⟨2, ![a, b]⟩ .f32) (m : FVec Ideal ⟨1, ![a]⟩ .f32)
    (hr : (⟨2, ![a, b]⟩ : Shape).Reduces [1] ⟨1, ![a]⟩) (hφ : FKind.Formats .f32)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  divf (exp (subf s (broadcastTo ⟨2, ![a, b]⟩ (shapeCast ⟨2, ![a, 1]⟩ m hc) hb)))
    (broadcastTo ⟨2, ![a, b]⟩
      (shapeCast ⟨2, ![a, 1]⟩
        (multiReduction .add [1] ⟨1, ![a]⟩
          (exp (subf s (broadcastTo ⟨2, ![a, b]⟩ (shapeCast ⟨2, ![a, 1]⟩ m hc) hb))) 0x00000000#32 hr hφ haccA) hc) hb)

/-- The maximum of the row maxima with minus infinity is the row maxima: each is a fold of max that started at
    minus infinity. -/
theorem remax_eq (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ) :
    maximumf (broadcast ⟨1, ![a]⟩ (Scalar.ofBits (F := Ideal) .f32 0xFF800000#32))
        (multiReduction .maximumf [1] ⟨1, ![a]⟩ s 0xFF800000#32 hr hφ haccM)
      = multiReduction .maximumf [1] ⟨1, ![a]⟩ s 0xFF800000#32 hr hφ haccM := by
  funext j
  show max (Ideal.ofBits .f32 0xFF800000#32) (multiReduction .maximumf [1] ⟨1, ![a]⟩ s 0xFF800000#32 hr hφ haccM j) = _
  rw [Ideal.multiReduction_maximumf_single s _ hr hφ haccM j]
  exact max_eq_right ((Finset.le_fold_max _).mpr (Or.inl le_rfl))

/-- The row softmax with the extra maximum, read at entry (p, q). -/
theorem softmaxRemax_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    softmaxFrom s
        (maximumf (broadcast ⟨1, ![a]⟩ (Scalar.ofBits (F := Ideal) .f32 0xFF800000#32))
          (multiReduction .maximumf [1] ⟨1, ![a]⟩ s 0xFF800000#32 hr hφ haccM))
        hr hφ haccA hc hb (ix2 p q)
      = softmax (fun k : Fin b => s (ix2 p k)) q :=
  (congrArg (fun m => softmaxFrom s m hr hφ haccA hc hb (ix2 p q)) (remax_eq s hr hφ haccM)).trans
    (softmaxRows_apply s hr hφ haccM haccA hc hb p q)

/-- The same for the whole array: every entry is the softmax of its row. -/
theorem softmaxRemax_eq (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) :
    softmaxFrom s
        (maximumf (broadcast ⟨1, ![a]⟩ (Scalar.ofBits (F := Ideal) .f32 0xFF800000#32))
          (multiReduction .maximumf [1] ⟨1, ![a]⟩ s 0xFF800000#32 hr hφ haccM))
        hr hφ haccA hc hb
      = fun i => softmax (fun k : Fin b => s (ix2 (i 0) k)) (i 1) := by
  funext i
  obtain ⟨p, q, rfl⟩ : ∃ (p : Fin a) (q : Fin b), i = ix2 p q := ⟨i 0, i 1, eq_ix2 i⟩
  exact softmaxRemax_apply s hr hφ haccM haccA hc hb p q

end Cert.Lib.SoftmaxRows

end
-- ==== Proof.KI.Payloads.lean ====
/-
  The values the kernel stores are the specification's pieces, on the extended reals.

  Four stored values, each a pure function of the vectors loaded before it:

  * the first layer on one tile of rows: the neighbour aggregate divided, row by row, by max(deg, 1) (the degree column
    repeated along the row), then  max(mean · wl + x · wr + b, 0)  — the graph-convolution layer of the mean;
  * the zero row that starts the pooled sum;
  * the pooled row plus the column sums of the second layer on one tile of rows;
  * the head: the pooled row times 1/100000, a rectified dense layer, a dense layer, and the row softmax (the row's
    maximum taken with minus infinity once more, which changes nothing).

  Each is read through the general lemmas for its spelling: a reshape to the same shape is the identity, a cast to a
  narrower float format is the identity on the extended reals, a product into a zero accumulator is the sum of
  products, a bias laid out as one row is the bias, a column repeated along the rows reads its row, a reduction over
  the rows kept as a row is the column sum. No law of arithmetic is needed beyond those lemmas: both sides add their
  terms in the same order.
-/
import proofs.«116514_j64527588655232_2_alg».proof.Proof.Gen.KernelIdeal.Skeleton
import proofs.«116514_j64527588655232_2_alg».proof.Proof.Spec
import proofs.«116514_j64527588655232_2_alg».proof.Proof.LibKeepdims
import proofs.«116514_j64527588655232_2_alg».proof.Proof.LibColumnSums
import proofs.«116514_j64527588655232_2_alg».proof.Proof.LibSoftmaxRowsRemax
import proofs.«116514_j64527588655232_2_alg».proof.Proof.LibSageLayer

noncomputable section

open scoped BigOperators

namespace Cert.KernelIdeal.Pay

open Cert.KernelIdeal Cert.KernelIdeal.Gen Cert.Layers Cert.Sage Cert.Spec Idealize.ShloMosaic Idealize.ShloMosaic.ValueIdx

/-! ## The general spellings -/

/-- The mean as the kernel spells it: the aggregate over the column max(deg, 1) repeated along the row. -/
theorem tileMean_eq {n k : Nat} (s : FVec Ideal ⟨2, ![n, k]⟩ .f32) (d : FVec Ideal ⟨2, ![n, 1]⟩ .f32)
    (hs : (⟨2, ![n, k]⟩ : Shape).ShapeCasts ⟨2, ![n, k]⟩) (hd : (⟨2, ![n, 1]⟩ : Shape).ShapeCasts ⟨2, ![n, 1]⟩)
    (hb : (⟨2, ![n, 1]⟩ : Shape).Broadcasts ⟨2, ![n, k]⟩) :
    divf (shapeCast ⟨2, ![n, k]⟩ s hs)
        (broadcastTo ⟨2, ![n, k]⟩
          (maximumf (shapeCast ⟨2, ![n, 1]⟩ d hd) (broadcast ⟨2, ![n, 1]⟩ (Scalar.ofBits (F := Ideal) .f32 0x3F800000#32))) hb)
      = meanOf s (colVec d) := by
  funext i
  obtain ⟨p, q, rfl⟩ : ∃ (p : Fin n) (q : Fin k), i = ix2 p q := ⟨i 0, i 1, eq_ix2 i⟩
  rw [shapeCast_self, shapeCast_self, meanOf_apply, colVec_apply, divf_apply]
  refine congrArg (Ideal.div (s (ix2 p q))) ?_
  exact Cert.Lib.Keepdims.bcastCol_apply _ hb p q

/-- A row accumulator plus the column sums of an [n, h] array kept as a row. -/
theorem tileColSums_eq {n h : Nat} (L : FVec Ideal ⟨2, ![n, h]⟩ .f32) (acc : FVec Ideal ⟨2, ![1, h]⟩ .f32)
    (hr : (⟨2, ![n, h]⟩ : Shape).Reduces [0] ⟨1, ![h]⟩) (hφ : FKind.Formats .f32)
    (hacc : (0x00000000#32 : BitVec FTy.f32.bits) = FKind.add.neutral .f32 hφ)
    (hc : (⟨1, ![h]⟩ : Shape).ShapeCasts ⟨2, ![1, h]⟩) (hs : (⟨2, ![1, h]⟩ : Shape).ShapeCasts ⟨2, ![1, h]⟩) :
    shapeCast ⟨2, ![1, h]⟩
        (addf acc (shapeCast ⟨2, ![1, h]⟩ (multiReduction .add [0] ⟨1, ![h]⟩ L 0x00000000#32 hr hφ hacc) hc)) hs
      = fun i => acc i + colSum L i := by
  rw [shapeCast_self]
  funext i
  obtain ⟨u, q, rfl⟩ : ∃ (u : Fin 1) (q : Fin h), i = ix2 u q := ⟨i 0, i 1, eq_ix2 i⟩
  obtain rfl : u = 0 := Subsingleton.elim _ _
  rw [colSum_apply, addf_apply]
  exact congrArg (acc (ix2 0 q) + ·) (Cert.Lib.ColumnSums.sumRow_apply L _ hr hφ hacc hc q)

/-- A cast to a narrower float format is the identity on the extended reals. -/
theorem truncf_eq {s : Shape} {φ ψ : FTy} (a : FVec Ideal s φ) (h : ψ.bits < φ.bits) :
    (truncf ψ a h : s.Idx → EReal) = (a : s.Idx → EReal) := rfl

/-- A bias vector laid out as one row is the bias repeated down one row. -/
theorem rowBias_eq {n : Nat} (b : FVec Ideal ⟨1, ![n]⟩ .f32) (hc : (⟨1, ![n]⟩ : Shape).ShapeCasts ⟨2, ![1, n]⟩) :
    shapeCast ⟨2, ![1, n]⟩ b hc = bias 1 b := by
  funext i
  obtain ⟨u, q, rfl⟩ : ∃ (u : Fin 1) (q : Fin n), i = ix2 u q := ⟨i 0, i 1, eq_ix2 i⟩
  exact shapeCast_a_1a_apply b hc u q

/-- One dense layer on a single row as the matrix unit spells it: the product into a zero accumulator plus the bias
    laid out as one row. -/
theorem tileDenseRow_eq {φ₁ ψ : FTy} {k n : Nat} (d : DotDims ⟨2, ![1, k]⟩ ⟨2, ![k, n]⟩ ⟨2, ![1, n]⟩)
    (wf : DotDims.WF ⟨2, ![1, k]⟩ ⟨2, ![k, n]⟩ ⟨2, ![1, n]⟩ [1] [0] [0] [1] [] [])
    (hd : d = Cert.LibMatmulPlain.plainDims 1 k n wf)
    (a : FVec Ideal ⟨2, ![1, k]⟩ φ₁) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩) :
    addf (matmul d none a (truncf ψ w hψ) (constant ⟨2, ![1, n]⟩ .f32 0x00000000#32)) (shapeCast ⟨2, ![1, n]⟩ b hc)
      = dense a w b := by
  rw [tileMm_eq d wf hd a w hψ, rowBias_eq b hc]
  rfl

/-! ## The four stored values -/

/-- The named reciprocal denotes the rational 1/100000 on the extended reals. -/
theorem inv_c : Named.named (F := Ideal) κ "inv_100000" (φ := .f32) 0x3727C5AC#32 = ((1 / 100000 : ℝ) : EReal) :=
  IdealRules.named_const.ideal_named_scalar _ _ _ _ rfl

/-- The first call's stored tile is the first layer of the tile's mean aggregate and own features. -/
theorem pay0_eq (v0 : Vec Ideal S5000x1 .f32) (v2 v8 : Vec Ideal S5000x8 .f32) (v11 v13 : Vec Ideal S8x64 .f32) (v15 : Vec Ideal S64 .f32) :
    k0_pay1 (F := Ideal) v0 v2 v8 v11 v13 v15 = layer (meanOf v2 (colVec v0)) v8 v11 v13 v15 := by
  refine (tileLayer_eq (ψ := .bf16) dot_S5000x8_S8x64_S5000x64_1_0_0_1_n_n dot_S5000x8_S8x64_S5000x64_1_0_0_1_n_n_wf rfl
    _ v8 v11 v13 v15 bitsLt_bf16_f32 shapeCasts_S64_S1x64 broadcasts_S1x64_S5000x64).trans ?_
  exact congrArg (fun a => layer a v8 v11 v13 v15)
    (tileMean_eq v2 v0 shapeCasts_S5000x8_S5000x8 shapeCasts_S5000x1_S5000x1 broadcasts_S5000x1_S5000x8)

/-- The pooled sum starts from the all-zero row. -/
theorem pay2_eq : k1_pay2 (F := Ideal) = fun _ => (0 : EReal) := by
  refine (shapeCast_self _ shapeCasts_S1x64_S1x64).trans ?_
  funext i
  exact Ideal.ofBits_zero_f32

/-- Each grid point adds to the pooled row the column sums of the second layer on its tile. -/
theorem pay3_eq (v3 : Vec Ideal S5000x1 .f32) (v5 v11 : Vec Ideal S5000x64 .f32) (v15 v17 : Vec Ideal S64x64 .f32) (v19 : Vec Ideal S64 .f32) (v28 : Vec Ideal S1x64 .f32) :
    k1_pay3 (F := Ideal) v3 v5 v11 v15 v17 v19 v28 = fun i => v28 i + colSum (layer (meanOf v5 (colVec v3)) v11 v15 v17 v19) i := by
  refine (tileColSums_eq _ v28 reduces_S5000x64_S64 (.inl rfl) rfl shapeCasts_S64_S1x64 shapeCasts_S1x64_S1x64).trans ?_
  refine congrArg (fun (L : Mat 5000 64) => fun i => v28 i + colSum L i) ?_
  refine (tileLayer_eq (ψ := .bf16) dot_S5000x64_S64x64_S5000x64_1_0_0_1_n_n dot_S5000x64_S64x64_S5000x64_1_0_0_1_n_n_wf rfl
    _ _ v15 v17 v19 bitsLt_bf16_f32 shapeCasts_S64_S1x64 broadcasts_S1x64_S5000x64).trans ?_
  exact congrArg₂ (fun a x => layer a x v15 v17 v19)
    (tileMean_eq v5 v3 shapeCasts_S5000x64_S5000x64 shapeCasts_S5000x1_S5000x1 broadcasts_S5000x1_S5000x64)
    (shapeCast_self v11 shapeCasts_S5000x64_S5000x64)

/-- The last grid point stores the head of the pooled row scaled by 1/100000. -/
theorem pay1_eq (v38 : Vec Ideal S1x64 .f32) (v42 : Vec Ideal S64x64 .f32) (v44 : Vec Ideal S64 .f32) (v51 : Vec Ideal S64x10 .f32) (v53 : Vec Ideal S10 .f32) :
    k1_pay1 (F := Ideal) v38 v42 v44 v51 v53 = head v38 ((1 / 100000 : ℝ) : EReal) v42 v44 v51 v53 := by
  refine (Cert.Lib.SoftmaxRows.softmaxRemax_eq (a := 1) (b := 10) _ reduces_S1x10_S1 (.inl rfl) rfl rfl
    shapeCasts_S1_S1x1 broadcasts_S1x1_S1x10).trans ?_
  refine congrArg (fun (s : Mat 1 10) => fun (i : (⟨2, ![1, 10]⟩ : Shape).Idx) => Cert.Lib.SoftmaxRows.softmax (fun k : Fin 10 => s (ix2 (i 0) k)) (i 1)) ?_
  refine (tileDenseRow_eq (ψ := .bf16) dot_S1x64_S64x10_S1x10_1_0_0_1_n_n dot_S1x64_S64x10_S1x10_1_0_0_1_n_n_wf rfl
    _ v51 v53 bitsLt_bf16_f32 shapeCasts_S10_S1x10).trans ?_
  refine congrArg (fun a : Mat 1 64 => dense a v51 v53) ?_
  refine (truncf_eq _ bitsLt_bf16_f32).trans ?_
  refine (tileRect_eq _).trans ?_
  refine congrArg (rect (s := ⟨2, ![1, 64]⟩)) ?_
  refine (tileDenseRow_eq (ψ := .bf16) dot_S1x64_S64x64_S1x64_1_0_0_1_n_n dot_S1x64_S64x64_S1x64_1_0_0_1_n_n_wf rfl
    _ v42 v44 bitsLt_bf16_f32 shapeCasts_S64_S1x64).trans ?_
  refine congrArg (fun a : Mat 1 64 => dense a v42 v44) ?_
  funext j
  exact congrArg (v38 j * ·) inv_c

end Cert.KernelIdeal.Pay

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.SpecTiles.lean ====
/-
  The pooled row accumulated tile by tile is the column sums over all rows.

  A matrix H of n = t * r rows is cut into t tiles of r consecutive rows. A row accumulator starts as zero plus the
  first tile's column sums, and each further tile adds its own column sums. By induction the accumulator after tile j
  holds the sum of the column sums of tiles 0 .. j; after the last tile that is, column by column, the sum over the
  t tiles of the sum over each tile's r rows, which is the sum over all t * r rows, each row counted once. Only
  commutativity and associativity of the addition on the extended reals are used: no entry has to be finite.
-/
import proofs.«116514_j64527588655232_2_alg».proof.Proof.Spec
import proofs.«116514_j64527588655232_2_alg».proof.Proof.LibSumBlocks

noncomputable section

open scoped BigOperators

namespace Cert.Spec

open Idealize.ShloMosaic Idealize.ShloMosaic.ValueIdx Cert.Layers Cert.LibSumBlocks

/-- The accumulator after tile j holds the sum of the column sums of tiles 0 .. j. -/
theorem tiles_partial {t r k : Nat} (L : Fin t → Mat r k) (acc : (j : ℕ) → j < t → Mat 1 k)
    (h0 : ∀ h, acc 0 h = fun i => (0 : EReal) + colSum (L ⟨0, h⟩) i)
    (hs : ∀ j (h : j + 1 < t), acc (j + 1) h = fun i => acc j (Nat.lt_of_succ_lt h) i + colSum (L ⟨j + 1, h⟩) i)
    (j : ℕ) (h : j < t) (i : (⟨2, ![1, k]⟩ : Shape).Idx) :
    acc j h i = ∑ s ∈ Finset.range (j + 1), if hb : s < t then colSum (L ⟨s, hb⟩) i else 0 := by
  induction j with
  | zero =>
    refine (congrFun (h0 h) i).trans ?_
    rw [Finset.sum_range_one, dif_pos h]
    exact zero_add _
  | succ j ih =>
    refine (congrFun (hs j h) i).trans ?_
    rw [Finset.sum_range_succ, dif_pos h, ← ih (Nat.lt_of_succ_lt h)]

/-- The accumulator after the last tile is the column sums of the whole matrix. -/
theorem tiles_colSum {t r n k : Nat} (hn : n = t * r) (ht : 0 < t) (H : Mat n k) (L : Fin t → Mat r k)
    (hL : ∀ (s : Fin t) (p : Fin r) (q : Fin k) (hb : s.val * r + p.val < n),
      L s (ix2 p q) = H (ix2 ⟨s.val * r + p.val, hb⟩ q))
    (acc : (j : ℕ) → j < t → Mat 1 k)
    (h0 : ∀ h, acc 0 h = fun i => (0 : EReal) + colSum (L ⟨0, h⟩) i)
    (hs : ∀ j (h : j + 1 < t), acc (j + 1) h = fun i => acc j (Nat.lt_of_succ_lt h) i + colSum (L ⟨j + 1, h⟩) i) :
    acc (t - 1) (Nat.sub_lt ht Nat.one_pos) = colSum H := by
  subst hn
  funext i
  obtain ⟨u, q, rfl⟩ : ∃ (u : Fin 1) (q : Fin k), i = ix2 u q := ⟨i 0, i 1, eq_ix2 i⟩
  rw [tiles_partial L acc h0 hs (t - 1) _ (ix2 u q), Nat.sub_add_cancel ht]
  refine (Finset.sum_fin_eq_sum_range (fun s : Fin t => colSum (L s) (ix2 u q))).symm.trans ?_
  rw [colSum_apply, sum_blocks t r (fun P => H (ix2 P q))]
  refine Finset.sum_congr rfl fun s _ => ?_
  rw [colSum_apply]
  exact Finset.sum_congr rfl fun p _ => hL s p q _

end Cert.Spec

end
-- ==== Proof.KI.Value1.lean ====
/-
  What the second region computes, on the extended reals, as functions of the arrays it finds.

  The grid has 20 points; point t works on rows 5000 t … 5000 t + 4999 of the first layer's output, of its neighbour
  sums and of the degree column, and on the whole weight and bias arrays. The second layer's row p depends on row p
  of its two row-tiled operands and on node p's degree only, so the layer of the tile at point t is rows
  5000 t … 5000 t + 4999 of the layer H2 of the whole arrays. The carried row starts from zero and each point adds
  the column sums of its tile's layer; after the twentieth point it holds, column by column, the sum over the 20 tiles
  of the sums over each tile's 5000 rows, which is the sum over all 100000 rows of H2. The last point's stored value
  is the head applied to the carried row, with the head's weights the whole arrays.
-/
import proofs.«116514_j64527588655232_2_alg».proof.Proof.KI.Region1Runs
import proofs.«116514_j64527588655232_2_alg».proof.Proof.KI.Payloads
import proofs.«116514_j64527588655232_2_alg».proof.Proof.SpecTiles

set_option maxRecDepth 16384

noncomputable section

namespace Cert.KernelIdeal.Val

open Cert.KernelIdeal Cert.KernelIdeal.Gen Cert.KernelIdeal.Hand Cert.KernelIdeal.Pay Cert.Layers Cert.Sage Cert.Spec Idealize.ShloMosaic Idealize.ShloMosaic.ValueIdx
open Idealize.ShloMosaic.TcCoe

/-! ## The layer on a tile of rows -/

/-- Row p' of the layer of a tile is row p of the layer of the whole matrices when row p' of the tile's sums,
    features and degree column is row p of the whole ones, the weights and the bias being the same. -/
theorem layer_tile1 {n n' k h : Nat} (s x : Mat n k) (d : Mat n 1) (s' x' : Mat n' k) (d' : Mat n' 1)
    (wl wr wl' wr' : Mat k h) (b b' : Row h) (p' : Fin n') (p : Fin n) (q : Fin h)
    (hs : ∀ j, s' (ix2 p' j) = s (ix2 p j)) (hx : ∀ j, x' (ix2 p' j) = x (ix2 p j)) (hd : d' (ix2 p' 0) = d (ix2 p 0))
    (hwl : wl' = wl) (hwr : wr' = wr) (hb : b' = b) :
    layer (meanOf s' (colVec d')) x' wl' wr' b' (ix2 p' q) = layer (meanOf s (colVec d)) x wl wr b (ix2 p q) := by
  subst hwl hwr hb
  refine layer_rows _ _ _ _ _ _ _ p' p (fun j => ?_) hx q
  rw [meanOf_apply, meanOf_apply, colVec_apply, colVec_apply, hs, hd]

/-! ## Where a block sits in its array -/

/-- The index maps of the three row-tiled windows over the grid: block row t, block column 0. -/
structure Tiled1 (t : Fin cfg1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = t.val ∧ win1_2.index t (1 : Fin 2) = 0

/-- The index maps of the weights' and biases' windows over the grid: block 0 throughout. -/
structure Whole1 (t : Fin cfg1.N) : Prop where
  w3 : win1_3.index t (0 : Fin 2) = 0 ∧ win1_3.index t (1 : Fin 2) = 0
  w4 : win1_4.index t (0 : Fin 1) = 0
  w5 : win1_5.index t (0 : Fin 2) = 0 ∧ win1_5.index t (1 : Fin 2) = 0
  w6 : win1_6.index t (0 : Fin 2) = 0 ∧ win1_6.index t (1 : Fin 2) = 0
  w7 : win1_7.index t (0 : Fin 1) = 0
  w8 : win1_8.index t (0 : Fin 2) = 0 ∧ win1_8.index t (1 : Fin 2) = 0
  w9 : win1_9.index t (0 : Fin 1) = 0

theorem idx_tiled1 : ∀ t : Fin cfg1.N, Tiled1 t :=
  fun t => ⟨(by decide +kernel : ∀ t : Fin grid1.N, win1_0.index t (0 : Fin 2) = t.val ∧ win1_0.index t (1 : Fin 2) = 0) t,
    (by decide +kernel : ∀ t : Fin grid1.N, win1_1.index t (0 : Fin 2) = t.val ∧ win1_1.index t (1 : Fin 2) = 0) t,
    (by decide +kernel : ∀ t : Fin grid1.N, win1_2.index t (0 : Fin 2) = t.val ∧ win1_2.index t (1 : Fin 2) = 0) t⟩

theorem idx_whole1 : ∀ t : Fin cfg1.N, Whole1 t :=
  fun t => ⟨(by decide +kernel : ∀ t : Fin grid1.N, win1_3.index t (0 : Fin 2) = 0 ∧ win1_3.index t (1 : Fin 2) = 0) t,
    (by decide +kernel : ∀ t : Fin grid1.N, win1_4.index t (0 : Fin 1) = 0) t,
    (by decide +kernel : ∀ t : Fin grid1.N, win1_5.index t (0 : Fin 2) = 0 ∧ win1_5.index t (1 : Fin 2) = 0) t,
    (by decide +kernel : ∀ t : Fin grid1.N, win1_6.index t (0 : Fin 2) = 0 ∧ win1_6.index t (1 : Fin 2) = 0) t,
    (by decide +kernel : ∀ t : Fin grid1.N, win1_7.index t (0 : Fin 1) = 0) t,
    (by decide +kernel : ∀ t : Fin grid1.N, win1_8.index t (0 : Fin 2) = 0 ∧ win1_8.index t (1 : Fin 2) = 0) t,
    (by decide +kernel : ∀ t : Fin grid1.N, win1_9.index t (0 : Fin 1) = 0) t⟩

section Region1
-- what the tensor core's buffers hold when the region is entered
variable (V : (c : Dev nD) → (b : Ref sig .tc) → Buf (Elt Ideal) ((c : Thread nD τ).loc b))

/-- the second layer on the whole arrays as region 1 finds them -/
def H2 (c : Dev nD) : Mat 100000 64 :=
  layer (meanOf (V c main_v29) (colVec (V c main_v8))) (V c main_v19) (V c main_arg5) (V c main_arg7) (V c main_arg6)

/-- Entry (r, q) of the first layer's output's block at point t is entry (5000 t + r, q) of the array. -/
theorem iblk1_0_apply (c : Dev nD) (t : Fin cfg1.N) (r : Fin 5000) (q : Fin 64) (hb : t.val * 5000 + r.val < 100000) :
    (iblk1 V c 0 t : Mat 5000 64) (ix2 r q) = (V c main_v19 : Mat 100000 64) (ix2 ⟨t.val * 5000 + r.val, hb⟩ q) := by
  have e := idx_tiled1 t
  unfold iblk1
  rw [View.read_apply]
  show V c main_v19 _ = V c main_v19 _
  congr 1
  funext a
  apply Fin.ext
  match a with
  | ⟨0, _⟩ => show win1_0.index t (0 : Fin 2) * 5000 + 1 * r.val = t.val * 5000 + r.val; rw [e.w0.1]; omega
  | ⟨1, _⟩ => show win1_0.index t (1 : Fin 2) * 64 + 1 * q.val = q.val; rw [e.w0.2]; omega

/-- Entry (r, q) of the neighbour sums' block at point t is entry (5000 t + r, q) of the array. -/
theorem iblk1_1_apply (c : Dev nD) (t : Fin cfg1.N) (r : Fin 5000) (q : Fin 64) (hb : t.val * 5000 + r.val < 100000) :
    (iblk1 V c 1 t : Mat 5000 64) (ix2 r q) = (V c main_v29 : Mat 100000 64) (ix2 ⟨t.val * 5000 + r.val, hb⟩ q) := by
  have e := idx_tiled1 t
  unfold iblk1
  rw [View.read_apply]
  show V c main_v29 _ = V c main_v29 _
  congr 1
  funext a
  apply Fin.ext
  match a with
  | ⟨0, _⟩ => show win1_1.index t (0 : Fin 2) * 5000 + 1 * r.val = t.val * 5000 + r.val; rw [e.w1.1]; omega
  | ⟨1, _⟩ => show win1_1.index t (1 : Fin 2) * 64 + 1 * q.val = q.val; rw [e.w1.2]; omega

/-- Entry (r, q) of the degree column's block at point t is entry (5000 t + r, q) of the array. -/
theorem iblk1_2_apply (c : Dev nD) (t : Fin cfg1.N) (r : Fin 5000) (q : Fin 1) (hb : t.val * 5000 + r.val < 100000) :
    (iblk1 V c 2 t : Mat 5000 1) (ix2 r q) = (V c main_v8 : Mat 100000 1) (ix2 ⟨t.val * 5000 + r.val, hb⟩ q) := by
  have e := idx_tiled1 t
  unfold iblk1
  rw [View.read_apply]
  show V c main_v8 _ = V c main_v8 _
  congr 1
  funext a
  apply Fin.ext
  match a with
  | ⟨0, _⟩ => show win1_2.index t (0 : Fin 2) * 5000 + 1 * r.val = t.val * 5000 + r.val; rw [e.w2.1]; omega
  | ⟨1, _⟩ => show win1_2.index t (1 : Fin 2) * 1 + 1 * q.val = q.val; rw [e.w2.2]; omega

/-- Window 3's block is its whole array at every point. -/
theorem iblk1_3_eq (c : Dev nD) (t : Fin cfg1.N) : (iblk1 V c 3 t : Mat 64 64) = (V c main_arg5 : Mat 64 64) := by
  have e := idx_whole1 t
  funext i
  obtain ⟨p, q, rfl⟩ : ∃ (p : Fin 64) (q : Fin 64), i = ix2 p q := ⟨i 0, i 1, eq_ix2 i⟩
  unfold iblk1
  rw [View.read_apply]
  show V c main_arg5 _ = V c main_arg5 _
  congr 1
  funext a
  apply Fin.ext
  match a with
  | ⟨0, _⟩ => show win1_3.index t (0 : Fin 2) * 64 + 1 * p.val = p.val; rw [e.w3.1]; omega
  | ⟨1, _⟩ => show win1_3.index t (1 : Fin 2) * 64 + 1 * q.val = q.val; rw [e.w3.2]; omega

/-- Window 4's block is its whole array at every point. -/
theorem iblk1_4_eq (c : Dev nD) (t : Fin cfg1.N) : (iblk1 V c 4 t : Row 64) = (V c main_arg6 : Row 64) := by
  have e := idx_whole1 t
  funext i
  obtain ⟨p, rfl⟩ : ∃ (p : Fin 64), i = ix1 p := ⟨i 0, eq_ix1 i⟩
  unfold iblk1
  rw [View.read_apply]
  show V c main_arg6 _ = V c main_arg6 _
  congr 1
  funext a
  apply Fin.ext
  match a with
  | ⟨0, _⟩ => show win1_4.index t (0 : Fin 1) * 64 + 1 * p.val = p.val; rw [e.w4]; omega

/-- Window 5's block is its whole array at every point. -/
theorem iblk1_5_eq (c : Dev nD) (t : Fin cfg1.N) : (iblk1 V c 5 t : Mat 64 64) = (V c main_arg7 : Mat 64 64) := by
  have e := idx_whole1 t
  funext i
  obtain ⟨p, q, rfl⟩ : ∃ (p : Fin 64) (q : Fin 64), i = ix2 p q := ⟨i 0, i 1, eq_ix2 i⟩
  unfold iblk1
  rw [View.read_apply]
  show V c main_arg7 _ = V c main_arg7 _
  congr 1
  funext a
  apply Fin.ext
  match a with
  | ⟨0, _⟩ => show win1_5.index t (0 : Fin 2) * 64 + 1 * p.val = p.val; rw [e.w5.1]; omega
  | ⟨1, _⟩ => show win1_5.index t (1 : Fin 2) * 64 + 1 * q.val = q.val; rw [e.w5.2]; omega

/-- Window 6's block is its whole array at every point. -/
theorem iblk1_6_eq (c : Dev nD) (t : Fin cfg1.N) : (iblk1 V c 6 t : Mat 64 64) = (V c main_arg8 : Mat 64 64) := by
  have e := idx_whole1 t
  funext i
  obtain ⟨p, q, rfl⟩ : ∃ (p : Fin 64) (q : Fin 64), i = ix2 p q := ⟨i 0, i 1, eq_ix2 i⟩
  unfold iblk1
  rw [View.read_apply]
  show V c main_arg8 _ = V c main_arg8 _
  congr 1
  funext a
  apply Fin.ext
  match a with
  | ⟨0, _⟩ => show win1_6.index t (0 : Fin 2) * 64 + 1 * p.val = p.val; rw [e.w6.1]; omega
  | ⟨1, _⟩ => show win1_6.index t (1 : Fin 2) * 64 + 1 * q.val = q.val; rw [e.w6.2]; omega

/-- Window 7's block is its whole array at every point. -/
theorem iblk1_7_eq (c : Dev nD) (t : Fin cfg1.N) : (iblk1 V c 7 t : Row 64) = (V c main_arg9 : Row 64) := by
  have e := idx_whole1 t
  funext i
  obtain ⟨p, rfl⟩ : ∃ (p : Fin 64), i = ix1 p := ⟨i 0, eq_ix1 i⟩
  unfold iblk1
  rw [View.read_apply]
  show V c main_arg9 _ = V c main_arg9 _
  congr 1
  funext a
  apply Fin.ext
  match a with
  | ⟨0, _⟩ => show win1_7.index t (0 : Fin 1) * 64 + 1 * p.val = p.val; rw [e.w7]; omega

/-- Window 8's block is its whole array at every point. -/
theorem iblk1_8_eq (c : Dev nD) (t : Fin cfg1.N) : (iblk1 V c 8 t : Mat 64 10) = (V c main_arg10 : Mat 64 10) := by
  have e := idx_whole1 t
  funext i
  obtain ⟨p, q, rfl⟩ : ∃ (p : Fin 64) (q : Fin 10), i = ix2 p q := ⟨i 0, i 1, eq_ix2 i⟩
  unfold iblk1
  rw [View.read_apply]
  show V c main_arg10 _ = V c main_arg10 _
  congr 1
  funext a
  apply Fin.ext
  match a with
  | ⟨0, _⟩ => show win1_8.index t (0 : Fin 2) * 64 + 1 * p.val = p.val; rw [e.w8.1]; omega
  | ⟨1, _⟩ => show win1_8.index t (1 : Fin 2) * 10 + 1 * q.val = q.val; rw [e.w8.2]; omega

/-- Window 9's block is its whole array at every point. -/
theorem iblk1_9_eq (c : Dev nD) (t : Fin cfg1.N) : (iblk1 V c 9 t : Row 10) = (V c main_arg11 : Row 10) := by
  have e := idx_whole1 t
  funext i
  obtain ⟨p, rfl⟩ : ∃ (p : Fin 10), i = ix1 p := ⟨i 0, eq_ix1 i⟩
  unfold iblk1
  rw [View.read_apply]
  show V c main_arg11 _ = V c main_arg11 _
  congr 1
  funext a
  apply Fin.ext
  match a with
  | ⟨0, _⟩ => show win1_9.index t (0 : Fin 1) * 10 + 1 * p.val = p.val; rw [e.w9]; omega

/-! ## The tile's layer inside the whole layer -/

/-- The second layer of the tile at point s, from the blocks the point finds. -/
def tile2 (c : Dev nD) (s : Fin cfg1.N) : Mat 5000 64 :=
  layer (meanOf (iblk1 V c 1 s) (colVec (iblk1 V c 2 s))) (iblk1 V c 0 s) (iblk1 V c 3 s) (iblk1 V c 5 s) (iblk1 V c 4 s)

/-- Row r of the tile's layer at point s is row 5000 s + r of the layer of the whole arrays. -/
theorem tile2_apply (c : Dev nD) (s : Fin cfg1.N) (r : Fin 5000) (q : Fin 64) (hb : s.val * 5000 + r.val < 100000) :
    tile2 V c s (ix2 r q) = H2 V c (ix2 ⟨s.val * 5000 + r.val, hb⟩ q) :=
  layer_tile1 (V c main_v29) (V c main_v19) (V c main_v8) (iblk1 V c 1 s) (iblk1 V c 0 s) (iblk1 V c 2 s)
    (V c main_arg5) (V c main_arg7) (iblk1 V c 3 s) (iblk1 V c 5 s) (V c main_arg6) (iblk1 V c 4 s) r ⟨_, hb⟩ q
    (fun j => iblk1_1_apply V c s r j hb) (fun j => iblk1_0_apply V c s r j hb) (iblk1_2_apply V c s r 0 hb)
    (iblk1_3_eq V c s) (iblk1_5_eq V c s) (iblk1_4_eq V c s)

/-! ## The carried row after the last point, and the head -/

/-- ANY sequence of scratch contents that starts from the zero fill and adds each point's tile ends, after the last
    point, at the column sums of H2. -/
theorem acc_final (c : Dev nD) (acc : (n : ℕ) → n < cfg1.N → Vec Ideal S1x64 .f32)
    (h0 : ∀ h, acc 0 h = Gen.k1_pay3 (F := Ideal) (iblk1 V c 2 ⟨0, h⟩) (iblk1 V c 1 ⟨0, h⟩) (iblk1 V c 0 ⟨0, h⟩) (iblk1 V c 3 ⟨0, h⟩) (iblk1 V c 5 ⟨0, h⟩) (iblk1 V c 4 ⟨0, h⟩) (Gen.k1_pay2 (F := Ideal)))
    (hs : ∀ n (h : n + 1 < cfg1.N), acc (n + 1) h = Gen.k1_pay3 (F := Ideal) (iblk1 V c 2 ⟨n + 1, h⟩) (iblk1 V c 1 ⟨n + 1, h⟩) (iblk1 V c 0 ⟨n + 1, h⟩) (iblk1 V c 3 ⟨n + 1, h⟩) (iblk1 V c 5 ⟨n + 1, h⟩) (iblk1 V c 4 ⟨n + 1, h⟩) (acc n (Nat.lt_of_succ_lt h)))
    (hl : 19 < cfg1.N) : acc 19 hl = colSum (H2 V c) := by
  have hN : cfg1.N = 20 := N_1
  have key := tiles_colSum (t := cfg1.N) (r := 5000) (n := 100000) (k := 64) (by rw [hN]) (by rw [hN]; decide)
    (H2 V c) (tile2 V c) (fun s p q hb => tile2_apply V c s p q hb) acc
    (fun h => (h0 h).trans ((pay3_eq _ _ _ _ _ _ _).trans (by rw [pay2_eq]; rfl)))
    (fun n h => (hs n h).trans (pay3_eq _ _ _ _ _ _ _))
  have move : ∀ (j : ℕ) (hj : j < cfg1.N), j = 19 → acc j hj = acc 19 hl := by
    intro j hj e; subst e; rfl
  exact (move _ _ (by rw [hN])).symm.trans key

/-- The last point's stored value, on a carried row a, is the head of the specification on the whole weight arrays. -/
theorem head_final (c : Dev nD) (t : Fin cfg1.N) (a : Vec Ideal S1x64 .f32) :
    Gen.k1_pay1 (F := Ideal) a (iblk1 V c 6 t) (iblk1 V c 7 t) (iblk1 V c 8 t) (iblk1 V c 9 t)
      = head a ((1 / 100000 : ℝ) : EReal) (V c main_arg8) (V c main_arg9) (V c main_arg10) (V c main_arg11) := by
  refine (pay1_eq a _ _ _ _).trans ?_
  rw [iblk1_6_eq V c t, iblk1_7_eq V c t, iblk1_8_eq V c t, iblk1_9_eq V c t]

end Region1

end Cert.KernelIdeal.Val

end
-- ==== Proof.KI.Final1.lean ====
/- Pipeline 1's result array after the run.

   The result array [1, 10] has a single block, the whole array, which every point of the grid names at block
   index (0, 0). The pipeline writes the block back once, after the last point. A block at zero offsets with the
   array's own extents, read through its view, is the array itself; so what the one write-back writes is the block the
   last point left, read through that view. The last point's block contains every index of the array, so the array
   ends holding what the last point stored. -/
import proofs.«116514_j64527588655232_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Final1
variable (V : (c : Dev nD) → (b : Ref sig .tc) → Buf (Elt F) ((c : Thread nD τ).loc b))

/-- A point that writes the result block back is the last point, and what it writes is the last point's block:
    block (0, 0) of the [1, 10] array, at zero offsets and of the array's extents, read through its view is the array. -/
theorem flushed1_10_eq (c : Dev nD) (t : Fin cfg1.N) (hf : (cfg1.win 10).flush t = true) :
    (dat1 V c).flushed 10 t = ((cfg1.win 10).blk t).view.read (Elt F) (outLast V c) := by
  have hN : cfg1.N = 20 := N_1
  have h1 : t.val = 19 := by have := (flush1_10 t).mp hf; have := t.isLt; omega
  obtain rfl : t = tLast1 := Fin.ext h1
  show (cfg1.win 10).cut (grid1.coords tLast1) ((dat1 V c).after 10 tLast1) = _
  rw [after1_10]
  have hz' : (fun a => win1_10.index tLast1 a * main_v30.ty.shape.size a) = fun _ => 0 :=
    funext fun a => by fin_cases a <;> decide
  exact (Memref.read_access_unit_zero (Elt F) main_v30 hz' (fun a => by rw [congrFun hz' a]; simp) (outLast V c)).symm

/-- The last point's block covers every index of the result array, so the array ends holding that block. -/
theorem final1_10 (c : Dev nD) : (dat1 V c).arrAt 10 cfg1.N = outLast V c :=
  (dat1 V c).arrAt_eq_of_cover 10 (outLast V c) (flushed1_10_eq V c) fun i =>
    ⟨tLast1, (flush1_10 tLast1).mpr rfl, by
      show i ∈ ((View.whole main_v30).slice (win1_10.rect tLast1)).set
      rw [View.set_slice_whole, Rect.mem_set_unit]
      intro a
      have h0 : (i 0 : Nat) < 1 := (i 0).isLt
      have h1 : (i 1 : Nat) < 10 := (i 1).isLt
      match a with
      | ⟨0, _⟩ =>
        show win1_10.index tLast1 0 * win1_10.size 0 ≤ (i 0 : Nat)
          ∧ (i 0 : Nat) < win1_10.index tLast1 0 * win1_10.size 0 + win1_10.xsize (grid1.coords tLast1) 0
        rw [show win1_10.index tLast1 0 * win1_10.size 0 = 0 from by decide +kernel,
          show win1_10.xsize (grid1.coords tLast1) 0 = 1 from by decide +kernel]
        omega
      | ⟨1, _⟩ =>
        show win1_10.index tLast1 1 * win1_10.size 1 ≤ (i 1 : Nat)
          ∧ (i 1 : Nat) < win1_10.index tLast1 1 * win1_10.size 1 + win1_10.xsize (grid1.coords tLast1) 1
        rw [show win1_10.index tLast1 1 * win1_10.size 1 = 0 from by decide +kernel,
          show win1_10.xsize (grid1.coords tLast1) 1 = 10 from by decide +kernel]
        omega⟩

end Final1

end Cert.KernelIdeal.Hand

end
-- ==== Proof.Ref.RefAgg.lean ====
/-
  The neighbour aggregation of the reference program, named once.

  The reference reads the edge list as two rows of node numbers: row 0 holds each edge's source, row 1 its target.
  A source number below zero is first moved up by the number of nodes. Every aggregate is a segment sum: the rows
  gathered at the sources are added into the rows named by the targets, starting from zero. The number of incoming
  edges of a node is the same segment sum of ones. These chains are only named here, never opened: the layers around
  them treat them as given functions of the arrays they read.
-/
import proofs.«116514_j64527588655232_2_alg».proof.Proof.Gen.ReferenceIdeal.Run
import proofs.«116514_j64527588655232_2_alg».proof.Proof.Gen.ReferenceIdeal.Read

noncomputable section

namespace Cert.RefNet

open Cert.ReferenceIdeal Cert.ReferenceIdeal.Gen Cert.ReferenceIdeal.Read Idealize.ShloMosaic Idealize.ShloMosaic.TcCoe
  Idealize.SL.Sem Idealize.ShloMosaic.StableHlo

/-- The edge list: two rows of node numbers. -/
abbrev Edges : Type := (⟨S2x1600000, .i32⟩ : BufTy).Contents (Elt Ideal)
/-- One node number per edge, as a column. -/
abbrev EdgeCol : Type := (⟨S1600000x1, .i32⟩ : BufTy).Contents (Elt Ideal)
/-- The input features, one row of 8 per node. -/
abbrev Feat8 : Type := (⟨S100000x8, .f32⟩ : BufTy).Contents (Elt Ideal)
/-- A hidden matrix, one row of 64 per node. -/
abbrev Feat64 : Type := (⟨S100000x64, .f32⟩ : BufTy).Contents (Elt Ideal)
/-- One number per node. -/
abbrev PerNode : Type := (⟨S100000, .f32⟩ : BufTy).Contents (Elt Ideal)

/-- The edges' targets: row 1 of the edge list, as a column. -/
def dstIdx (ei : Edges) : EdgeCol :=
  broadcastInDim S1600000x1 ![0] bcast_S1600000_S1600000x1_0
    (shapeCast _ (extractStridedSlice S1x1600000 ![1, 0] ei slices_S2x1600000_S1x1600000_1_0) shapeCasts_S1x1600000_S1600000)

/-- The edges' sources: row 0 of the edge list, a number below zero moved up by the number of nodes, as a column. -/
def srcIdx (ei : Edges) : EdgeCol :=
  broadcastInDim S1600000x1 ![0] bcast_S1600000_S1600000x1_0
    (select
      (cmpi .slt (shapeCast _ (extractStridedSlice S1x1600000 ![0, 0] ei slices_S2x1600000_S1x1600000_0_0) shapeCasts_S1x1600000_S1600000)
        (broadcastInDim S1600000 ![] bcast_S_S1600000 (constantI S_ 32 0#32)))
      (addi (shapeCast _ (extractStridedSlice S1x1600000 ![0, 0] ei slices_S2x1600000_S1x1600000_0_0) shapeCasts_S1x1600000_S1600000)
        (broadcastInDim S1600000 ![] bcast_S_S1600000 (constantI S_ 32 100000#32)))
      (shapeCast _ (extractStridedSlice S1x1600000 ![0, 0] ei slices_S2x1600000_S1x1600000_0_0) shapeCasts_S1x1600000_S1600000))

/-- The aggregate of the input features: the rows of x at the sources, summed into the targets. -/
def agg8 (x : Feat8) (ei : Edges) : Feat8 :=
  Host.scatterAdd (F := Ideal) scatter_S100000x8_S1600000x1_S1600000x8_1_0_0_1
    (broadcastInDim S100000x8 ![] bcast_S_S100000x8 (constant (F := Ideal) S_ .f32 0x00000000#32)) (dstIdx ei)
    (Host.gather gather_S100000x8_S1600000x1_S1600000x8_1_0_n_n_0_1_18 x (srcIdx ei))

/-- The number of incoming edges of each node: ones summed into the targets. -/
def deg (ei : Edges) : PerNode :=
  Host.scatterAdd (F := Ideal) scatter_S100000_S1600000x1_S1600000_n_0_0_1
    (broadcastInDim S100000 ![] bcast_S_S100000 (constant (F := Ideal) S_ .f32 0x00000000#32)) (dstIdx ei)
    (broadcastInDim S1600000 ![] bcast_S_S1600000 (constant (F := Ideal) S_ .f32 0x3F800000#32))

/-- The aggregate of a hidden matrix: its rows at the sources, summed into the targets. -/
def agg64 (ei : Edges) (h : Feat64) : Feat64 :=
  Host.scatterAdd (F := Ideal) scatter_S100000x64_S1600000x1_S1600000x64_1_0_0_1
    (broadcastInDim S100000x64 ![] bcast_S_S100000x64 (constant (F := Ideal) S_ .f32 0x00000000#32)) (dstIdx ei)
    (Host.gather gather_S100000x64_S1600000x1_S1600000x64_1_0_n_n_0_1_164 h (srcIdx ei))

/-! The program's stages that compute these chains are these chains. -/

theorem v12_eq (ei : Edges) : val_main_v12 (F := Ideal) ei = dstIdx ei := rfl
theorem v16_eq (ei : Edges) : val_main_v16 (F := Ideal) ei = dstIdx ei := rfl
theorem v42_eq (ei : Edges) : val_main_v42 (F := Ideal) ei = dstIdx ei := rfl
theorem v46_eq (ei : Edges) : val_main_v46 (F := Ideal) ei = dstIdx ei := rfl
theorem v9_eq (ei : Edges) : val_main_v9 (F := Ideal) ei = srcIdx ei := rfl
theorem v39_eq (ei : Edges) : val_main_v39 (F := Ideal) ei = srcIdx ei := rfl

theorem v13_eq (x : Feat8) (ei : Edges) : val_main_v13 (F := Ideal) x ei = agg8 x ei := rfl
theorem v17_eq (ei : Edges) : val_main_v17 (F := Ideal) ei = deg ei := rfl
theorem v47_eq (ei : Edges) : val_main_v47 (F := Ideal) ei = deg ei := rfl

theorem v43_eq (x : Feat8) (ei : Edges) (wl : (⟨S8x64, .f32⟩ : BufTy).Contents (Elt Ideal))
    (b : (⟨S64, .f32⟩ : BufTy).Contents (Elt Ideal)) (wr : (⟨S8x64, .f32⟩ : BufTy).Contents (Elt Ideal)) :
    val_main_v43 (F := Ideal) x ei wl b wr = agg64 ei (val_main_v29 (F := Ideal) x ei wl b wr) := rfl

end Cert.RefNet

end
-- ==== Proof.KI.HostChain.lean ====
/-
  The host operations around the two kernels, read as the aggregation chains.

  Before the first kernel the host computes each node's number of incoming edges (laid out as a column) and the
  aggregate of the input features; between the kernels it computes the aggregate of the first layer's output. Each is
  the same chain of operations the reference program applies — a gather of rows at the edges' sources followed by a
  segment sum into the edges' targets — so each is named by the reference's own function of the arrays it reads and
  is never opened.
-/
import proofs.«116514_j64527588655232_2_alg».proof.Proof.Gen.KernelIdeal.Launch
import proofs.«116514_j64527588655232_2_alg».proof.Proof.Ref.RefAgg
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 4000000 in
/-- After the first stretch the aggregate's buffer holds the aggregate of the input features. -/
theorem host0_v18 :
    (StableHlo.after hostOps0 W (Proc.devRef .tc main_v18) : S100000x8.Idx → EReal)
      = Cert.RefNet.agg8 (W (Proc.devRef .tc main_arg0)) (W (Proc.devRef .tc main_arg1)) := by
  after_results_simp <;> rfl

set_option maxHeartbeats 4000000 in
/-- After the first stretch the degree buffer holds the edge counts, laid out as a column. -/
theorem host0_v8 :
    (StableHlo.after hostOps0 W (Proc.devRef .tc main_v8) : S100000x1.Idx → EReal)
      = broadcastInDim S100000x1 ![0] bcast_S100000_S100000x1_0 (Cert.RefNet.deg (W (Proc.devRef .tc main_arg1))) := by
  after_results_simp <;> rfl

/-- Row `k` of the edge list as a vector of node numbers. -/
abbrev edgeRow0 (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
abbrev edgeRow1 (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

set_option maxHeartbeats 4000000 in
/-- The first stretch leaves the edges' sources in their own buffer, -/
theorem host0_v1 :
    StableHlo.after hostOps0 W (Proc.devRef .tc main_v1) = edgeRow0 (W (Proc.devRef .tc main_arg1)) := by
  after_results_simp <;> rfl

set_option maxHeartbeats 4000000 in
/-- and the edges' targets in theirs. -/
theorem host0_v3 :
    StableHlo.after hostOps0 W (Proc.devRef .tc main_v3) = edgeRow1 (W (Proc.devRef .tc main_arg1)) := by
  after_results_simp <;> rfl

set_option maxHeartbeats 4000000 in
/-- After the second stretch, which reads the edges' sources and targets from those two buffers, the second
    aggregate's buffer holds the aggregate of the first layer's output. -/
theorem host1_v29 (ei : (⟨S2x1600000, .i32⟩ : BufTy).Contents (Elt Ideal))
    (h1 : W (Proc.devRef .tc main_v1) = edgeRow0 ei) (h3 : W (Proc.devRef .tc main_v3) = edgeRow1 ei) :
    (StableHlo.after hostOps1 W (Proc.devRef .tc main_v29) : S100000x64.Idx → EReal)
      = Cert.RefNet.agg64 ei (W (Proc.devRef .tc main_v19)) := by
  have e : (StableHlo.after hostOps1 W (Proc.devRef .tc main_v29) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W (Proc.devRef .tc main_v3)))
          (Host.gather gather_S100000x64_S1600000x1_S1600000x64_1_0_n_n_0_1_164 (W (Proc.devRef .tc main_v19))
            (broadcastInDim S1600000x1 ![0] bcast_S1600000_S1600000x1_0
              (select (cmpi .slt (W (Proc.devRef .tc main_v1)) (broadcastInDim S1600000 ![] bcast_S_S1600000 (constantI S_ 32 0#32)))
                (addi (W (Proc.devRef .tc main_v1)) (broadcastInDim S1600000 ![] bcast_S_S1600000 (constantI S_ 32 100000#32)))
                (W (Proc.devRef .tc main_v1))))) := by
    after_results_simp <;> rfl
  rw [e, h1, h3]
  rfl

end Cert.KernelIdeal.Val

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.KI.Value.lean ====
/-
  The kernel program's result is the network of the specification on the launch contents of its arguments.

  The program is: host operations, the first layer's kernel, host operations, the second layer's kernel with the
  pooled head. Followed buffer by buffer from the launch memory:
  the first stretch leaves the aggregate of the input features, the in-degrees as a column, and the edges' sources
  and targets; the first kernel leaves the first layer of those arrays; the second stretch leaves the aggregate of
  the first layer's output; the second kernel leaves the head of the column sums of the second layer of those.
  No step changes an argument. Written out, that is the network: head ∘ column sums ∘ second layer ∘ first layer.
-/
import proofs.«116514_j64527588655232_2_alg».proof.Proof.KI.Run
import proofs.«116514_j64527588655232_2_alg».proof.Proof.KI.Value0
import proofs.«116514_j64527588655232_2_alg».proof.Proof.KI.Value1
import proofs.«116514_j64527588655232_2_alg».proof.Proof.KI.Final1
import proofs.«116514_j64527588655232_2_alg».proof.Proof.KI.HostChain
import proofs.«116514_j64527588655232_2_alg».proof.Proof.LibBroadcastInDim

set_option maxRecDepth 16384

noncomputable section

namespace Cert.KernelIdeal.Val

open Cert.KernelIdeal Cert.KernelIdeal.Gen Cert.KernelIdeal.Hand Cert.Layers Cert.Sage Cert.Spec Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- The first kernel's stored value on the extended reals is the layer of the tile it loaded. -/
theorem pay0 : Pay0 := fun v0 v2 v8 v11 v13 v15 => Pay.pay0_eq v0 v2 v8 v11 v13 v15

/-! ## The arguments, wherever they are read -/

/-! No host operation writes an argument: when the first kernel starts each still holds its launch contents. -/
theorem V1_arg0 : V1 m ρ c main_arg0 = m ((c : Thread nD τ).loc main_arg0) :=
  W1_of m ρ c main_arg0 (by decide)
theorem V1_arg2 : V1 m ρ c main_arg2 = m ((c : Thread nD τ).loc main_arg2) :=
  W1_of m ρ c main_arg2 (by decide)
theorem V1_arg3 : V1 m ρ c main_arg3 = m ((c : Thread nD τ).loc main_arg3) :=
  W1_of m ρ c main_arg3 (by decide)
theorem V1_arg4 : V1 m ρ c main_arg4 = m ((c : Thread nD τ).loc main_arg4) :=
  W1_of m ρ c main_arg4 (by decide)

/-- A buffer that neither stretch of host operations writes and the first kernel does not stage is, when the second
    kernel starts, as launched. -/
theorem V3_of_untouched (r : Ref sig .tc) (h1 : r ∉ hostOps1_W) (h2 : ∀ w, Pipeline.arrRef spec0 w ≠ r) (h0 : r ∉ hostOps0_W) :
    V3 m ρ c r = W0 m ρ c (Proc.devRef .tc r) :=
  (W3_of m ρ c r h1).trans ((W2_of_ne m ρ c r h2).trans (W1_of m ρ c r h0))

theorem V3_arg5 : V3 m ρ c main_arg5 = m ((c : Thread nD τ).loc main_arg5) :=
  V3_of_untouched m ρ c main_arg5 (by decide) (by decide) (by decide)
theorem V3_arg6 : V3 m ρ c main_arg6 = m ((c : Thread nD τ).loc main_arg6) :=
  V3_of_untouched m ρ c main_arg6 (by decide) (by decide) (by decide)
theorem V3_arg7 : V3 m ρ c main_arg7 = m ((c : Thread nD τ).loc main_arg7) :=
  V3_of_untouched m ρ c main_arg7 (by decide) (by decide) (by decide)
theorem V3_arg8 : V3 m ρ c main_arg8 = m ((c : Thread nD τ).loc main_arg8) :=
  V3_of_untouched m ρ c main_arg8 (by decide) (by decide) (by decide)
theorem V3_arg9 : V3 m ρ c main_arg9 = m ((c : Thread nD τ).loc main_arg9) :=
  V3_of_untouched m ρ c main_arg9 (by decide) (by decide) (by decide)
theorem V3_arg10 : V3 m ρ c main_arg10 = m ((c : Thread nD τ).loc main_arg10) :=
  V3_of_untouched m ρ c main_arg10 (by decide) (by decide) (by decide)
theorem V3_arg11 : V3 m ρ c main_arg11 = m ((c : Thread nD τ).loc main_arg11) :=
  V3_of_untouched m ρ c main_arg11 (by decide) (by decide) (by decide)

/-! ## What the first stretch of host operations leaves -/

/-- The aggregate of the input features. -/
theorem V1_v18 : (V1 m ρ c main_v18 : Mat 100000 8) = Cert.RefNet.agg8 (m ((c : Thread nD τ).loc main_arg0)) (m ((c : Thread nD τ).loc main_arg1)) :=
  host0_v18 (W0 m ρ c)

/-- The in-degrees, laid out as a column: read back as a vector they are the edge counts. -/
theorem V1_v8_col : colVec (V1 m ρ c main_v8 : Mat 100000 1) = Cert.RefNet.deg (m ((c : Thread nD τ).loc main_arg1)) :=
  (congrArg colVec (host0_v8 (W0 m ρ c))).trans (funext fun i => by
    obtain ⟨p, rfl⟩ : ∃ p : Fin 100000, i = ix1 p := ⟨i 0, eq_ix1 i⟩
    rw [colVec_apply]
    exact Cert.Lib.BroadcastInDim.vecAsCol_apply _ _ p)

/-! ## What the first kernel leaves -/

/-- The first layer of the arrays it found, which is the specification's first layer of the arguments. -/
theorem H1_eq : H1 (V1 m ρ) c = first (m ((c : Thread nD τ).loc main_arg0)) (Cert.RefNet.agg8 (m ((c : Thread nD τ).loc main_arg0)) (m ((c : Thread nD τ).loc main_arg1))) (Cert.RefNet.deg (m ((c : Thread nD τ).loc main_arg1))) (m ((c : Thread nD τ).loc main_arg2)) (m ((c : Thread nD τ).loc main_arg4)) (m ((c : Thread nD τ).loc main_arg3)) := by
  unfold H1 first
  rw [V1_v18, V1_v8_col, V1_arg0, V1_arg2, V1_arg4, V1_arg3]

/-- The second stretch does not write the first layer's output: the second kernel finds what the first left. -/
theorem V3_v19 : (V3 m ρ c main_v19 : Mat 100000 64) = H1 (V1 m ρ) c :=
  (W3_of m ρ c main_v19 (by decide)).trans ((W2_arr m ρ c 6).trans (final0_6 (V1 m ρ) pay0 c))

/-- Nothing after the first stretch writes the degree column: the second kernel finds the first kernel's. -/
theorem V3_v8 : V3 m ρ c main_v8 = V1 m ρ c main_v8 :=
  (W3_of m ρ c main_v8 (by decide)).trans
    ((W2_arr m ρ c 2).trans (((dat0 (V1 m ρ) c).arrAt_in 2 rfl _).trans (A_eq0 (V1 m ρ) c 2)))

/-! ## What the second stretch of host operations leaves -/

/-- The aggregate of the first layer's output: the edges' sources and targets are where the first stretch left
    them, the first kernel having touched neither. -/
theorem V3_v29 : (V3 m ρ c main_v29 : Mat 100000 64) = Cert.RefNet.agg64 (m ((c : Thread nD τ).loc main_arg1)) (H1 (V1 m ρ) c) := by
  have h1 : W2 m ρ c (Proc.devRef .tc main_v1) = edgeRow0 (m ((c : Thread nD τ).loc main_arg1)) :=
    (W2_of_ne m ρ c main_v1 (by decide)).trans (host0_v1 (W0 m ρ c))
  have h3 : W2 m ρ c (Proc.devRef .tc main_v3) = edgeRow1 (m ((c : Thread nD τ).loc main_arg1)) :=
    (W2_of_ne m ρ c main_v3 (by decide)).trans (host0_v3 (W0 m ρ c))
  refine (host1_v29 (W2 m ρ c) (m ((c : Thread nD τ).loc main_arg1)) h1 h3).trans ?_
  exact congrArg (Cert.RefNet.agg64 (m ((c : Thread nD τ).loc main_arg1))) ((W2_arr m ρ c 6).trans (final0_6 (V1 m ρ) pay0 c))

/-! ## What the second kernel leaves -/

/-- The second layer of the arrays it found is the specification's second layer of the first layer's output. -/
theorem H2_eq : H2 (V3 m ρ) c
    = second (Cert.RefNet.agg64 (m ((c : Thread nD τ).loc main_arg1))) (Cert.RefNet.deg (m ((c : Thread nD τ).loc main_arg1))) (H1 (V1 m ρ) c) (m ((c : Thread nD τ).loc main_arg5)) (m ((c : Thread nD τ).loc main_arg7)) (m ((c : Thread nD τ).loc main_arg6)) := by
  unfold H2 second
  rw [V3_v29, V3_v8, V1_v8_col, V3_v19, V3_arg5, V3_arg7, V3_arg6]

/-- The result: the head of the column sums of the second layer of the first layer. -/
theorem kernel_value : (W4 m ρ c (Proc.devRef .tc main_v30) : S1x10.Idx → EReal)
      = Cert.Spec.net (n := 100000) (k := 8) (h := 64) (o := 10) (m ((c : Thread nD τ).loc main_arg0)) (Cert.RefNet.agg8 (m ((c : Thread nD τ).loc main_arg0)) (m ((c : Thread nD τ).loc main_arg1)))
        (Cert.RefNet.deg (m ((c : Thread nD τ).loc main_arg1))) (Cert.RefNet.agg64 (m ((c : Thread nD τ).loc main_arg1))) (m ((c : Thread nD τ).loc main_arg2)) (m ((c : Thread nD τ).loc main_arg4)) (m ((c : Thread nD τ).loc main_arg3)) (m ((c : Thread nD τ).loc main_arg5)) (m ((c : Thread nD τ).loc main_arg7)) (m ((c : Thread nD τ).loc main_arg6))
        ((1 / 100000 : ℝ) : EReal) (m ((c : Thread nD τ).loc main_arg8)) (m ((c : Thread nD τ).loc main_arg9)) (m ((c : Thread nD τ).loc main_arg10)) (m ((c : Thread nD τ).loc main_arg11)) := by
  have e1 : (W4 m ρ c (Proc.devRef .tc main_v30) : S1x10.Idx → EReal) = outLast (V3 m ρ) c :=
    (W4_arr m ρ c 10).trans (final1_10 (V3 m ρ) c)
  have e2 : outLast (V3 m ρ) c = head (acc1 (V3 m ρ) c 19 (by decide)) ((1 / 100000 : ℝ) : EReal)
      (V3 m ρ c main_arg8) (V3 m ρ c main_arg9) (V3 m ρ c main_arg10) (V3 m ρ c main_arg11) :=
    head_final (V3 m ρ) c tLast1 _
  have e3 : acc1 (V3 m ρ) c 19 (by decide) = colSum (H2 (V3 m ρ) c) :=
    acc_final (V3 m ρ) c (acc1 (V3 m ρ) c) (fun _ => rfl) (fun _ _ => rfl) _
  rw [e1, e2, e3, H2_eq, H1_eq, V3_arg8, V3_arg9, V3_arg10, V3_arg11]
  rfl

end Cert.KernelIdeal.Val

end
-- ==== Proof.LibHostSoftmaxRows.lean ====
/-
  The softmax of each row of an [a, b] array, as a host program spells it (jnp's softmax lowered to stablehlo),
  read at an entry on the extended reals, for any extents.

  The host takes each row's maximum from minus infinity (a reduce with a maximum body over the last axis), takes the
  maximum of that with minus infinity once more, lays the [a] vector out as an [a, 1] column and repeats the column
  across the b columns, subtracts, exponentiates, sums each row of exponentials from zero, lays the sums out as a
  column and repeats it, and divides. Entry (p, q) of the result is exp(s_q - m) / (sum over k of exp(s_k - m)),
  where s is row p of the array and m the maximum of that row from minus infinity: `hostSoftmax_apply`. The steps are
  read one at a time: the reduced index p with the column k put back is (p, k) (`lift_last`), the row maxima
  (`hostRowMax_apply`, `hostRowMaxV_apply`), the row sums (`hostRowSum_apply`), the shifted exponentials
  (`hostExpShift_apply`).
-/
import Idealize.ShloMosaic.Lib.Pipeline.Value
import Idealize.ShloMosaic.Lib.ValueIdx
import Idealize.ShloMosaic.Lib.IdealHost
import Idealize.ShloMosaic.PureOps.Ideal.Laws
import proofs.«116514_j64527588655232_2_alg».proof.Proof.LibSoftmaxRows
import proofs.«116514_j64527588655232_2_alg».proof.Proof.LibBroadcastInDim

noncomputable section

open scoped BigOperators

namespace Cert.Lib.HostSoftmaxRows

open Idealize.ShloMosaic Idealize.ShloMosaic.ValueIdx Cert.Lib.SoftmaxRows Cert.Lib.BroadcastInDim

variable {a b : Nat}

/-- Over the reduced index p of a reduction along the last axis, the source index with column k put back is (p, k). -/
theorem lift_last (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- The host's reduce with a maximum body over the last axis, from minus infinity: at p, the maximum of row p. -/
theorem hostRowMax_apply (s : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf s (constant (F := Ideal) ⟨0, ![]⟩ .f32 0xFF800000#32) h' hu (ix1 p)
      = rowMax (fun k : Fin b => s (ix2 p k)) := by
  refine (Host.reduce_eq_fold_single FloatOps.maximumf s _ h' h hu (ix1 p)).trans ?_
  exact Finset.fold_congr fun k _ => congrArg s (lift_last h p k)

/-- The host's sum over the last axis, from zero: at p, the sum of row p. -/
theorem hostRowSum_apply (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd v (constant (F := Ideal) ⟨0, ![]⟩ .f32 0x00000000#32) h' hu (ix1 p) = ∑ k : Fin b, v (ix2 p k) := by
  show Ideal.hostReduceAdd h' v (Ideal.ofBits .f32 0x00000000#32) (ix1 p) = _
  rw [Ideal.hostReduceAdd_single h' h, Ideal.ofBits_zero_f32, zero_add]
  exact Finset.sum_congr rfl fun k _ => congrArg v (lift_last h p k)

/-- The row maxima as the host keeps them: the reduce from minus infinity, and the maximum with minus infinity once more. -/
def hostRowMaxV (s : FVec Ideal ⟨2, ![a, b]⟩ .f32)
    (h0 : (⟨0, ![]⟩ : Shape).BroadcastsInDim ⟨1, ![a]⟩ (![] : Fin 0 → Fin 1))
    (h' : (⟨2, ![a, b]⟩ : Shape).ReducesTo [1] ⟨1, ![a]⟩) (hu : 0 < (⟨0, ![]⟩ : Shape).numel) : FVec Ideal ⟨1, ![a]⟩ .f32 :=
  maximumf (broadcastInDim ⟨1, ![a]⟩ ![] h0 (constant (F := Ideal) ⟨0, ![]⟩ .f32 0xFF800000#32))
    (Host.reduce FloatOps.maximumf s (constant (F := Ideal) ⟨0, ![]⟩ .f32 0xFF800000#32) h' hu)

/-- At p it is the maximum of row p: the second maximum with minus infinity changes nothing. -/
theorem hostRowMaxV_apply (s : FVec Ideal ⟨2, ![a, b]⟩ .f32)
    (h0 : (⟨0, ![]⟩ : Shape).BroadcastsInDim ⟨1, ![a]⟩ (![] : Fin 0 → Fin 1))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    hostRowMaxV s h0 h' hu (ix1 p) = rowMax (fun k : Fin b => s (ix2 p k)) := by
  show max (broadcastInDim ⟨1, ![a]⟩ ![] h0 (constant (F := Ideal) ⟨0, ![]⟩ .f32 0xFF800000#32) (ix1 p))
      (Host.reduce FloatOps.maximumf s (constant (F := Ideal) ⟨0, ![]⟩ .f32 0xFF800000#32) h' hu (ix1 p)) = _
  rw [scalar_apply _ h0 _ (ix1 p), hostRowMax_apply s h' h hu p]
  exact max_negInf_rowMax _

/-- The shifted exponentials as the host spells them: the maxima laid out as a column, repeated across the columns,
    subtracted, exponentiated. -/
def hostExpShift (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (hu : 0 < (⟨0, ![]⟩ : Shape).numel) : FVec Ideal ⟨2, ![a, b]⟩ .f32 :=
  Host.exp (subf s (broadcastInDim ⟨2, ![a, b]⟩ ![0, 1] h2 (broadcastInDim ⟨2, ![a, 1]⟩ ![0] h1 (hostRowMaxV s h0 h' hu))))

/-- Entry (p, k) of the shifted exponentials: exp of the entry less the row's maximum. -/
theorem hostExpShift_apply (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (k : Fin b) :
    hostExpShift s h0 h1 h2 h' hu (ix2 p k) = Ideal.exp (s (ix2 p k) - rowMax (fun k : Fin b => s (ix2 p k))) :=
  congrArg (fun m => Ideal.exp (s (ix2 p k) - m))
    ((colAcross_apply h2 _ p k).trans ((vecAsCol_apply h1 _ p).trans (hostRowMaxV_apply s h0 h' h hu p)))

/-- The row softmax as the host spells it: the shifted exponentials over their row sums, the sums laid out as a column
    and repeated across the columns. -/
def hostSoftmax (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (hu : 0 < (⟨0, ![]⟩ : Shape).numel) : FVec Ideal ⟨2, ![a, b]⟩ .f32 :=
  Host.divf (hostExpShift s h0 h1 h2 h' hu)
    (broadcastInDim ⟨2, ![a, b]⟩ ![0, 1] h2 (broadcastInDim ⟨2, ![a, 1]⟩ ![0] h1
      (Host.reduceAdd (hostExpShift s h0 h1 h2 h' hu) (constant (F := Ideal) ⟨0, ![]⟩ .f32 0x00000000#32) h' hu)))

/-- The host's row softmax read at entry (p, q). -/
theorem hostSoftmax_apply (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (q : Fin b) :
    hostSoftmax s h0 h1 h2 h' hu (ix2 p q) = softmax (fun k : Fin b => s (ix2 p k)) q := by
  have he : ∀ k : Fin b, hostExpShift s h0 h1 h2 h' hu (ix2 p k)
      = Ideal.exp (s (ix2 p k) - rowMax (fun k : Fin b => s (ix2 p k))) := hostExpShift_apply s h0 h1 h2 h' h hu p
  show Ideal.div (hostExpShift s h0 h1 h2 h' hu (ix2 p q))
      (broadcastInDim ⟨2, ![a, b]⟩ ![0, 1] h2 (broadcastInDim ⟨2, ![a, 1]⟩ ![0] h1
        (Host.reduceAdd (hostExpShift s h0 h1 h2 h' hu) (constant (F := Ideal) ⟨0, ![]⟩ .f32 0x00000000#32) h' hu)) (ix2 p q)) = _
  refine (congrArg₂ Ideal.div (he q) ((colAcross_apply h2 _ p q).trans ((vecAsCol_apply h1 _ p).trans
    (hostRowSum_apply _ h' h hu p)))).trans ?_
  unfold softmax
  exact congrArg (Ideal.div _) (Finset.sum_congr rfl fun k _ => he k)

end Cert.Lib.HostSoftmaxRows

end
-- ==== Proof.Ref.RefSpell.lean ====
/-
  The host's spellings of the pieces of the network, for any extents.

  An aggregate divided, row by row, by the larger of the node's number of incoming edges and one, the number laid
  out as a column and repeated across the columns, is the mean of the specification. A layer whose three terms are
  added in the order (a · wl + b) + x · wr is the layer (a · wl + x · wr) + b: addition on the extended reals is
  commutative and associative. The column sums from the zero word are the plain column sums, and dividing them by a
  nonzero real y is multiplying by 1 / y. A vector laid out as one row is the bias of a one-row matrix, so the two
  dense layers of the head and the row softmax after them are the head of the specification.
-/
import proofs.«116514_j64527588655232_2_alg».proof.Proof.Spec
import proofs.«116514_j64527588655232_2_alg».proof.Proof.LibBroadcastInDim
import proofs.«116514_j64527588655232_2_alg».proof.Proof.LibHostSoftmaxRows

noncomputable section

open scoped BigOperators

namespace Cert.RefSpell

open Idealize.ShloMosaic Idealize.ShloMosaic.ValueIdx Cert.LibMatmulPlain Cert.Layers Cert.Sage Cert.Spec
  Cert.Lib.BroadcastInDim Cert.Lib.SoftmaxRows Cert.Lib.HostSoftmaxRows

variable {n k h o : Nat}

/-- The aggregate over max(d, 1), the divisor laid out as a column and repeated across the columns. -/
theorem hostMean_eq (s : FVec Ideal ⟨2, ![n, k]⟩ .f32) (d : FVec Ideal ⟨1, ![n]⟩ .f32)
    (h0 : (⟨0, ![]⟩ : Shape).BroadcastsInDim ⟨1, ![n]⟩ (![] : Fin 0 → Fin 1))
    (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2)) :
    Host.divf s (broadcastInDim ⟨2, ![n, k]⟩ ![0, 1] h2 (broadcastInDim ⟨2, ![n, 1]⟩ ![0] h1
        (maximumf d (broadcastInDim ⟨1, ![n]⟩ ![] h0 (constant (F := Ideal) ⟨0, ![]⟩ .f32 0x3F800000#32)))))
      = meanOf s d := by
  funext i
  obtain ⟨p, q, rfl⟩ : ∃ (p : Fin n) (q : Fin k), i = ix2 p q := ⟨i 0, i 1, eq_ix2 i⟩
  rw [meanOf_apply]
  refine congrArg (Ideal.div (s (ix2 p q))) ?_
  refine (colAcross_apply h2 _ p q).trans ((vecAsCol_apply h1 _ p).trans ?_)
  show max (d (ix1 p)) (broadcastInDim ⟨1, ![n]⟩ ![] h0 (constant (F := Ideal) ⟨0, ![]⟩ .f32 0x3F800000#32) (ix1 p)) = _
  rw [scalar_apply _ h0 _ (ix1 p)]
  rfl

/-- The layer with its three terms added in the order (a · wl + b) + x · wr. -/
theorem hostLayer_eq' (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![]) :
    maximumf
        (addf (addf (Host.dotGeneral d none a wl)
            (broadcastInDim ⟨2, ![n, h]⟩ ![0, 1] h2 (broadcastInDim ⟨2, ![1, h]⟩ ![1] h1 b)))
          (Host.dotGeneral d none x wr))
        (broadcastInDim ⟨2, ![n, h]⟩ ![] h0 (constant (F := Ideal) ⟨0, ![]⟩ .f32 0x00000000#32))
      = layer a x wl wr b := by
  rw [hostRect_eq _ h0, hostBias_eq b h1 h2, hostMm_eq d wf hd a wl, hostMm_eq d wf hd x wr]
  funext i
  show max ((mm a wl i + bias n b i) + mm x wr i) _ = max ((mm a wl i + mm x wr i) + bias n b i) _
  rw [add_right_comm]

/-- Over the reduced index q of a reduction along the first axis, the source index with row p put back is (p, q). -/
theorem lift_first (hr : (⟨2, ![n, h]⟩ : Shape).Reduces [0] ⟨1, ![h]⟩) (q : Fin h) (p : Fin n) :
    hr.lift (ix1 q) p = ix2 p q :=
  funext fun d => Fin.ext (by match d with | ⟨0, _⟩ => rfl | ⟨1, _⟩ => rfl)

/-- The host's sum over the first axis, from zero: at q, the sum of column q. -/
theorem hostColSum_apply (v : FVec Ideal ⟨2, ![n, h]⟩ .f32)
    (h' : (⟨2, ![n, h]⟩ : Shape).ReducesTo [0] ⟨1, ![h]⟩) (hr : (⟨2, ![n, h]⟩ : Shape).Reduces [0] ⟨1, ![h]⟩)
    (hu : 0 < (⟨0, ![]⟩ : Shape).numel) (q : Fin h) :
    Host.reduceAdd v (constant (F := Ideal) ⟨0, ![]⟩ .f32 0x00000000#32) h' hu (ix1 q) = ∑ p : Fin n, v (ix2 p q) := by
  show Ideal.hostReduceAdd h' v (Ideal.ofBits .f32 0x00000000#32) (ix1 q) = _
  rw [Ideal.hostReduceAdd_single h' hr, Ideal.ofBits_zero_f32, zero_add]
  exact Finset.sum_congr rfl fun p _ => congrArg v (lift_first hr q p)

/-- A vector laid out as the one row of a matrix, [h] → [1, h] along axis 1: entry (u, q) is element q. -/
theorem vecAsRow_apply {α : Type} (h1 : (⟨1, ![h]⟩ : Shape).BroadcastsInDim ⟨2, ![1, h]⟩ ![1])
    (b : (⟨1, ![h]⟩ : Shape).Idx → α) (u : Fin 1) (q : Fin h) :
    broadcastInDim ⟨2, ![1, h]⟩ ![1] h1 b (ix2 u q) = b (ix1 q) :=
  broadcastInDim_apply _ h1 b (ix2 u q) (ix1 q) fun ax => match ax with
    | ⟨0, _⟩ => by show q.val = if h = 1 then 0 else q.val; split_ifs with hh <;> omega

/-- A vector laid out as the one row of a matrix is the bias of a one-row matrix. -/
theorem hostRowBias_eq (b : FVec Ideal ⟨1, ![h]⟩ .f32) (h1 : (⟨1, ![h]⟩ : Shape).BroadcastsInDim ⟨2, ![1, h]⟩ ![1]) :
    broadcastInDim ⟨2, ![1, h]⟩ ![1] h1 b = bias 1 b := by
  funext i
  obtain ⟨u, q, rfl⟩ : ∃ (u : Fin 1) (q : Fin h), i = ix2 u q := ⟨i 0, i 1, eq_ix2 i⟩
  exact vecAsRow_apply h1 b u q

/-- The column sums from the zero word, kept as one row and divided by the word of a nonzero real y: the column
    sums times 1 / y. -/
theorem hostColMean_eq (v : FVec Ideal ⟨2, ![n, h]⟩ .f32)
    (h' : (⟨2, ![n, h]⟩ : Shape).ReducesTo [0] ⟨1, ![h]⟩) (hr : (⟨2, ![n, h]⟩ : Shape).Reduces [0] ⟨1, ![h]⟩)
    (hu : 0 < (⟨0, ![]⟩ : Shape).numel)
    (h1 : (⟨1, ![h]⟩ : Shape).BroadcastsInDim ⟨2, ![1, h]⟩ ![1])
    (h0 : (⟨0, ![]⟩ : Shape).BroadcastsInDim ⟨2, ![1, h]⟩ ![])
    (w : BitVec 32) (y : ℝ) (hy : y ≠ 0) (hw : Ideal.ofBits .f32 w = ((y : ℝ) : EReal)) :
    Host.divf
        (broadcastInDim ⟨2, ![1, h]⟩ ![1] h1
          (Host.reduceAdd v (constant (F := Ideal) ⟨0, ![]⟩ .f32 0x00000000#32) h' hu))
        (broadcastInDim ⟨2, ![1, h]⟩ ![] h0 (constant (F := Ideal) ⟨0, ![]⟩ .f32 w))
      = fun j => colSum v j * ((1 / y : ℝ) : EReal) := by
  funext i
  obtain ⟨u, q, rfl⟩ : ∃ (u : Fin 1) (q : Fin h), i = ix2 u q := ⟨i 0, i 1, eq_ix2 i⟩
  show Ideal.div (broadcastInDim ⟨2, ![1, h]⟩ _ h1 _ (ix2 u q))
      (broadcastInDim ⟨2, ![1, h]⟩ _ h0 (constant (F := Ideal) ⟨0, ![]⟩ .f32 w) (ix2 u q)) = _
  rw [vecAsRow_apply h1 _ u q, scalar_apply _ h0 _ (ix2 u q), hostColSum_apply v h' hr hu q, colSum_apply]
  show Ideal.div _ (Ideal.ofBits .f32 w) = _
  rw [hw, Ideal.div_coe hy]

/-- The head as the host spells it, on a pooled row already scaled. -/
theorem hostHead_eq (acc : FVec Ideal ⟨2, ![1, h]⟩ .f32)
    (d1 : DotDims ⟨2, ![1, h]⟩ ⟨2, ![h, h]⟩ ⟨2, ![1, h]⟩)
    (wf1 : DotDims.WF ⟨2, ![1, h]⟩ ⟨2, ![h, h]⟩ ⟨2, ![1, h]⟩ [1] [0] [0] [1] [] []) (hd1 : d1 = plainDims 1 h h wf1)
    (d2 : DotDims ⟨2, ![1, h]⟩ ⟨2, ![h, o]⟩ ⟨2, ![1, o]⟩)
    (wf2 : DotDims.WF ⟨2, ![1, h]⟩ ⟨2, ![h, o]⟩ ⟨2, ![1, o]⟩ [1] [0] [0] [1] [] []) (hd2 : d2 = plainDims 1 h o wf2)
    (w1 : FVec Ideal ⟨2, ![h, h]⟩ .f32) (b1 : FVec Ideal ⟨1, ![h]⟩ .f32)
    (w2 : FVec Ideal ⟨2, ![h, o]⟩ .f32) (b2 : FVec Ideal ⟨1, ![o]⟩ .f32)
    (g1 : (⟨1, ![h]⟩ : Shape).BroadcastsInDim ⟨2, ![1, h]⟩ ![1])
    (g0 : (⟨0, ![]⟩ : Shape).BroadcastsInDim ⟨2, ![1, h]⟩ ![])
    (g2 : (⟨1, ![o]⟩ : Shape).BroadcastsInDim ⟨2, ![1, o]⟩ ![1])
    (k0 : (⟨0, ![]⟩ : Shape).BroadcastsInDim ⟨1, ![1]⟩ (![] : Fin 0 → Fin 1))
    (k1 : (⟨1, ![1]⟩ : Shape).BroadcastsInDim ⟨2, ![1, 1]⟩ (![0] : Fin 1 → Fin 2))
    (k2 : (⟨2, ![1, 1]⟩ : Shape).BroadcastsInDim ⟨2, ![1, o]⟩ (![0, 1] : Fin 2 → Fin 2))
    (r' : (⟨2, ![1, o]⟩ : Shape).ReducesTo [1] ⟨1, ![1]⟩) (r : (⟨2, ![1, o]⟩ : Shape).Reduces [1] ⟨1, ![1]⟩)
    (hu : 0 < (⟨0, ![]⟩ : Shape).numel) :
    hostSoftmax
        (addf
          (Host.dotGeneral d2 none
            (maximumf (addf (Host.dotGeneral d1 none acc w1) (broadcastInDim ⟨2, ![1, h]⟩ ![1] g1 b1))
              (broadcastInDim ⟨2, ![1, h]⟩ ![] g0 (constant (F := Ideal) ⟨0, ![]⟩ .f32 0x00000000#32)))
            w2)
          (broadcastInDim ⟨2, ![1, o]⟩ ![1] g2 b2))
        k0 k1 k2 r' hu
      = fun i => softmax (fun q : Fin o => dense (rect (dense acc w1 b1)) w2 b2 (ix2 (i 0) q)) (i 1) := by
  rw [hostRect_eq _ g0, hostRowBias_eq b1 g1, hostRowBias_eq b2 g2, hostMm_eq d1 wf1 hd1 acc w1]
  funext i
  obtain ⟨u, q, rfl⟩ : ∃ (u : Fin 1) (q : Fin o), i = ix2 u q := ⟨i 0, i 1, eq_ix2 i⟩
  rw [hostSoftmax_apply _ k0 k1 k2 r' r hu u q, hostMm_eq d2 wf2 hd2]
  rfl

end Cert.RefSpell

end
-- ==== Proof.Ref.RefLayers.lean ====
/-
  The reference program's two graph-convolution layers are the layers of the specification.

  Each layer's stage of the program is the host's spelling of the layer on the mean of the aggregate: the aggregate
  and the number of incoming edges are the chains named once, and the three terms are added in the order
  (a · wl + b) + x · wr.
-/
import proofs.«116514_j64527588655232_2_alg».proof.Proof.Ref.RefAgg
import proofs.«116514_j64527588655232_2_alg».proof.Proof.Ref.RefSpell

noncomputable section

namespace Cert.RefNet

open Cert.ReferenceIdeal Cert.ReferenceIdeal.Gen Cert.ReferenceIdeal.Read Idealize.ShloMosaic Idealize.ShloMosaic.TcCoe
  Idealize.SL.Sem Idealize.ShloMosaic.StableHlo Cert.Layers Cert.Sage Cert.Spec Cert.RefSpell

/-- An [8, 64] weight. -/
abbrev W8x64 : Type := (⟨S8x64, .f32⟩ : BufTy).Contents (Elt Ideal)
/-- A [64, 64] weight. -/
abbrev W64x64 : Type := (⟨S64x64, .f32⟩ : BufTy).Contents (Elt Ideal)
/-- A [64] bias. -/
abbrev V64 : Type := (⟨S64, .f32⟩ : BufTy).Contents (Elt Ideal)

/-- The first layer's stage is the first layer. -/
theorem first_eq (x0 : Feat8) (x1 : Edges) (x2 : W8x64) (x3 : V64) (x4 : W8x64) :
    val_main_v29 (F := Ideal) x0 x1 x2 x3 x4
      = first (n := 100000) (k := 8) (h := 64) x0 (agg8 x0 x1) (deg x1) x2 x4 x3 := by
  have hm : val_main_v22 (F := Ideal) x0 x1 = meanOf (n := 100000) (k := 8) (agg8 x0 x1) (deg x1) :=
    hostMean_eq (n := 100000) (k := 8) (agg8 x0 x1) (deg x1) bcast_S_S100000 bcast_S100000_S100000x1_0
      bcast_S100000x1_S100000x8_0_1
  unfold val_main_v29 val_main_v28 val_main_v26 val_main_v23 val_main_v27 val_main_v25 val_main_v24 val_main_call0_v0
    val_main_call0_cst
  rw [hm]
  exact hostLayer_eq' (n := 100000) (k := 8) (h := 64) dot_S100000x8_S8x64_S100000x64_1_0_0_1_n_n
    dot_S100000x8_S8x64_S100000x64_1_0_0_1_n_n_wf rfl _ x0 x2 x4 x3 bcast_S64_S1x64_1 bcast_S1x64_S100000x64_0_1
    bcast_S_S100000x64

/-- The second layer's stage is the second layer of the first layer's stage. -/
theorem second_eq (x0 : Feat8) (x1 : Edges) (x2 : W8x64) (x3 : V64) (x4 : W8x64) (x5 : W64x64) (x6 : V64) (x7 : W64x64) :
    val_main_v59 (F := Ideal) x0 x1 x2 x3 x4 x5 x6 x7
      = second (n := 100000) (h := 64) (agg64 x1) (deg x1) (val_main_v29 (F := Ideal) x0 x1 x2 x3 x4) x5 x7 x6 := by
  have hm : val_main_v52 (F := Ideal) x0 x1 x2 x3 x4
      = meanOf (n := 100000) (k := 64) (agg64 x1 (val_main_v29 (F := Ideal) x0 x1 x2 x3 x4)) (deg x1) :=
    hostMean_eq (n := 100000) (k := 64) (agg64 x1 (val_main_v29 (F := Ideal) x0 x1 x2 x3 x4)) (deg x1) bcast_S_S100000
      bcast_S100000_S100000x1_0 bcast_S100000x1_S100000x64_0_1
  unfold val_main_v59 val_main_v58 val_main_v56 val_main_v53 val_main_v57 val_main_v55 val_main_v54 val_main_call1_v0
    val_main_call1_cst
  rw [hm]
  exact hostLayer_eq' (n := 100000) (k := 64) (h := 64) dot_S100000x64_S64x64_S100000x64_1_0_0_1_n_n
    dot_S100000x64_S64x64_S100000x64_1_0_0_1_n_n_wf rfl _ (val_main_v29 (F := Ideal) x0 x1 x2 x3 x4) x5 x7 x6
    bcast_S64_S1x64_1 bcast_S1x64_S100000x64_0_1 bcast_S_S100000x64

end Cert.RefNet

end
-- ==== Proof.Ref.RefConst.lean ====
/-
  The float word the reference divides the column sums by denotes the real 100000, the number of nodes.
-/
import Idealize.ShloMosaic.PureOps.Ideal

noncomputable section

namespace Cert.RefConst

open Idealize.ShloMosaic

/-- The f32 word 0x47C35000 is 100000. -/
theorem ofBits_nodes : Ideal.ofBits .f32 0x47C35000#32 = ((100000 : ℝ) : EReal) := by
  simp [Ideal.ofBits, Ideal.ieee, -EReal.coe_mul]; norm_num

end Cert.RefConst

end
-- ==== Proof.Ref.RefHead.lean ====
/-
  The reference program's pooling and head are the head of the specification.

  The second layer's rows are summed down each column from the zero word, the sums kept as one row and divided by
  the word of 100000: the column sums times 1 / 100000. Two dense layers, the first rectified, and the host's row
  softmax follow.
-/
import proofs.«116514_j64527588655232_2_alg».proof.Proof.Ref.RefLayers
import proofs.«116514_j64527588655232_2_alg».proof.Proof.Ref.RefConst

noncomputable section

namespace Cert.RefNet

open Cert.ReferenceIdeal Cert.ReferenceIdeal.Gen Cert.ReferenceIdeal.Read Idealize.ShloMosaic Idealize.ShloMosaic.TcCoe
  Idealize.SL.Sem Idealize.ShloMosaic.StableHlo Cert.Layers Cert.Sage Cert.Spec Cert.RefSpell Cert.Lib.HostSoftmaxRows

/-- A [64, 10] weight. -/
abbrev W64x10 : Type := (⟨S64x10, .f32⟩ : BufTy).Contents (Elt Ideal)
/-- A [10] bias. -/
abbrev V10 : Type := (⟨S10, .f32⟩ : BufTy).Contents (Elt Ideal)

/-- The pooled row: the column sums of the second layer's stage times 1 / 100000. -/
theorem pooled_eq (x0 : Feat8) (x1 : Edges) (x2 : W8x64) (x3 : V64) (x4 : W8x64) (x5 : W64x64) (x6 : V64) (x7 : W64x64) :
    val_main_v63 (F := Ideal) x0 x1 x2 x3 x4 x5 x6 x7
      = fun j => colSum (n := 100000) (k := 64) (val_main_v59 (F := Ideal) x0 x1 x2 x3 x4 x5 x6 x7) j
          * ((1 / 100000 : ℝ) : EReal) := by
  unfold val_main_v63 val_main_v62 val_main_v61 val_main_v60 val_main_cst_11 val_main_cst_10
  exact hostColMean_eq (n := 100000) (h := 64) (val_main_v59 (F := Ideal) x0 x1 x2 x3 x4 x5 x6 x7)
    reducesTo_S100000x64_S64_d0 (by decide) h_S_ bcast_S64_S1x64_1 bcast_S_S1x64 0x47C35000#32 100000 (by norm_num)
    Cert.RefConst.ofBits_nodes

/-- The last stages are the host's row softmax of the second dense layer's stage. -/
theorem v81_softmax (x0 : Feat8) (x1 : Edges) (x2 : W8x64) (x3 : V64) (x4 : W8x64) (x5 : W64x64) (x6 : V64) (x7 x8 : W64x64)
    (x9 : V64) (x10 : W64x10) (x11 : V10) :
    val_main_v81 (F := Ideal) x0 x1 x2 x3 x4 x5 x6 x7 x8 x9 x10 x11
      = hostSoftmax (a := 1) (b := 10) (val_main_v70 (F := Ideal) x0 x1 x2 x3 x4 x5 x6 x7 x8 x9 x10 x11) bcast_S_S1
          bcast_S1_S1x1_0 bcast_S1x1_S1x10_0_1 reducesTo_S1x10_S1_d1 h_S_ := rfl

/-- The result's stage is the head on the column sums of the second layer's stage. -/
theorem head_eq (x0 : Feat8) (x1 : Edges) (x2 : W8x64) (x3 : V64) (x4 : W8x64) (x5 : W64x64) (x6 : V64) (x7 x8 : W64x64)
    (x9 : V64) (x10 : W64x10) (x11 : V10) :
    val_main_v81 (F := Ideal) x0 x1 x2 x3 x4 x5 x6 x7 x8 x9 x10 x11
      = head (h := 64) (o := 10) (colSum (n := 100000) (k := 64) (val_main_v59 (F := Ideal) x0 x1 x2 x3 x4 x5 x6 x7))
          ((1 / 100000 : ℝ) : EReal) x8 x9 x10 x11 := by
  rw [v81_softmax]
  unfold val_main_v70 val_main_v69 val_main_v68 val_main_v67 val_main_v66 val_main_v65 val_main_v64 val_main_call2_v0
    val_main_call2_cst
  rw [pooled_eq]
  exact hostHead_eq (h := 64) (o := 10) _ dot_S1x64_S64x64_S1x64_1_0_0_1_n_n dot_S1x64_S64x64_S1x64_1_0_0_1_n_n_wf rfl
    dot_S1x64_S64x10_S1x10_1_0_0_1_n_n dot_S1x64_S64x10_S1x10_1_0_0_1_n_n_wf rfl x8 x9 x10 x11 bcast_S64_S1x64_1
    bcast_S_S1x64 bcast_S10_S1x10_1 bcast_S_S1 bcast_S1_S1x1_0 bcast_S1x1_S1x10_0_1 reducesTo_S1x10_S1_d1 (by decide) h_S_

end Cert.RefNet

end
-- ==== Proof.Ref.RefNet.lean ====
/-
  The reference program's result is the network of the specification.

  The result is the head on the column sums of the second layer, the second layer is the layer of the first, and
  the first layer is the layer of the input features; the neighbour aggregation enters as the chains named once.
-/
import proofs.«116514_j64527588655232_2_alg».proof.Proof.Ref.RefHead

noncomputable section

namespace Cert.RefNet

open Cert.ReferenceIdeal Cert.ReferenceIdeal.Gen Cert.ReferenceIdeal.Read Idealize.ShloMosaic Idealize.ShloMosaic.TcCoe
  Idealize.SL.Sem Idealize.ShloMosaic.StableHlo Cert.Layers Cert.Sage Cert.Spec

/-- The result's stage is the network on the arguments. -/
theorem net_eq (x0 : Feat8) (x1 : Edges) (x2 : W8x64) (x3 : V64) (x4 : W8x64) (x5 : W64x64) (x6 : V64) (x7 x8 : W64x64)
    (x9 : V64) (x10 : W64x10) (x11 : V10) :
    val_main_v81 (F := Ideal) x0 x1 x2 x3 x4 x5 x6 x7 x8 x9 x10 x11
      = net (n := 100000) (k := 8) (h := 64) (o := 10) x0 (agg8 x0 x1) (deg x1) (agg64 x1) x2 x4 x3 x5 x7 x6
          ((1 / 100000 : ℝ) : EReal) x8 x9 x10 x11 := by
  rw [head_eq, second_eq, first_eq]
  rfl

/-- The reference program's result is the network on the arguments' launch contents. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = net (n := 100000) (k := 8) (h := 64) (o := 10)
          (m ((c.tc : Thread nD τ).loc main_arg0))
          (agg8 (m ((c.tc : Thread nD τ).loc main_arg0)) (m ((c.tc : Thread nD τ).loc main_arg1)))
          (deg (m ((c.tc : Thread nD τ).loc main_arg1)))
          (agg64 (m ((c.tc : Thread nD τ).loc main_arg1)))
          (m ((c.tc : Thread nD τ).loc main_arg2)) (m ((c.tc : Thread nD τ).loc main_arg4))
          (m ((c.tc : Thread nD τ).loc main_arg3)) (m ((c.tc : Thread nD τ).loc main_arg5))
          (m ((c.tc : Thread nD τ).loc main_arg7)) (m ((c.tc : Thread nD τ).loc main_arg6))
          ((1 / 100000 : ℝ) : EReal)
          (m ((c.tc : Thread nD τ).loc main_arg8)) (m ((c.tc : Thread nD τ).loc main_arg9))
          (m ((c.tc : Thread nD τ).loc main_arg10)) (m ((c.tc : Thread nD τ).loc main_arg11)) :=
  (val_main_v81_eq m c).trans (net_eq _ _ _ _ _ _ _ _ _ _ _ _)

end Cert.RefNet

end
-- ==== Proof.lean ====
/-
  A two-layer graph network with mean aggregation, a mean pool and a two-layer softmax head: the tiled kernel program
  against the plain reference, on the extended reals.

  Both programs aggregate neighbour features by the same gather and segment sum on the host. The kernel program
  computes each layer tile by tile (5000 of the 100000 nodes at a time): the first kernel writes the first layer's
  rows; the second kernel never writes the second layer but adds each tile's column sums into a scratch row that
  it keeps between grid points, and at the last point multiplies the total by the named constant 1/100000 and applies
  the head. The reference computes both layers on whole arrays, sums the second layer's rows, divides by 100000 and
  applies the same head.

  The two agree for these reasons only. A row of a layer depends on that row of its operands alone, so a tile of the
  layer is the layer of the tile. The sum over all rows is the sum over the tiles of each tile's sum, addition on the
  extended reals being commutative and associative. The reference adds the layer's three terms in another order than
  the kernel. Dividing by 100000 is multiplying by 1/100000 for every extended real. A change of float format is the
  identity. No step needs an entry to be finite, so the precondition is never opened.

  The frames: each kernel program runs as host operations, the first kernel, host operations, the second kernel, every
  unscoped buffer of a core followed through the four segments; the reference's frame is its run with the result
  dropped.
-/
import proofs.«116514_j64527588655232_2_alg».proof.Defs
import proofs.«116514_j64527588655232_2_alg».proof.Proof.Gen.Kernel
import proofs.«116514_j64527588655232_2_alg».proof.Proof.Gen.KernelIdeal
import proofs.«116514_j64527588655232_2_alg».proof.Proof.Gen.ReferenceIdeal
import proofs.«116514_j64527588655232_2_alg».proof.Proof.Gen.Pre_finite_inputs
import proofs.«116514_j64527588655232_2_alg».proof.Proof.Gen.ReferenceIdeal.Run
import proofs.«116514_j64527588655232_2_alg».proof.Proof.K.Run
import proofs.«116514_j64527588655232_2_alg».proof.Proof.KI.Run
import proofs.«116514_j64527588655232_2_alg».proof.Proof.KI.Value
import proofs.«116514_j64527588655232_2_alg».proof.Proof.Ref.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's constant 9.99999974e-6 is named 1/100000. -/
theorem preserves : Cert.preserves_Kernel_KernelIdeal :=
  IdealRules.named_const.statement Cert.KernelIdeal.κ "inv_100000" .f32 0x3727C5AC#32 ((1 / 100000 : ℝ) : EReal) rfl

/-- Both programs end with the result array at the network of the specification on the launch arrays. -/
theorem algebraic : Cert.algebraic_KernelIdeal_ReferenceIdeal := by
  intro m ρ m' ρ' _ hagree
  refine ⟨fun c => Cert.Spec.net (n := 100000) (k := 8) (h := 64) (o := 10) (m ((c.tc : Thread Cert.KernelIdeal.nD Cert.KernelIdeal.τ).loc Cert.KernelIdeal.main_arg0)) (Cert.RefNet.agg8 (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.RefNet.deg (m ((c.tc : Thread Cert.KernelIdeal.nD Cert.KernelIdeal.τ).loc Cert.KernelIdeal.main_arg1))) (Cert.RefNet.agg64 (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)) ((1 / 100000 : ℝ) : EReal) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, ?_, ?_, ?_, ?_, ?_, ?_, ?_, ?_, ?_, ?_, ?_, ?_⟩)
      (Cert.KernelIdeal.Hand.run_all (F := Ideal) m ρ)
    · exact (h c _ (Cert.KernelIdeal.Hand.mem_uc Cert.KernelIdeal.main_v30 (by decide))).trans
        (Cert.KernelIdeal.Val.kernel_value m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
    · exact (h c _ (Cert.KernelIdeal.Hand.mem_uc Cert.KernelIdeal.main_arg4 (by decide))).trans (Cert.KernelIdeal.Hand.W4_main_arg4 m ρ c)
    · exact (h c _ (Cert.KernelIdeal.Hand.mem_uc Cert.KernelIdeal.main_arg5 (by decide))).trans (Cert.KernelIdeal.Hand.W4_main_arg5 m ρ c)
    · exact (h c _ (Cert.KernelIdeal.Hand.mem_uc Cert.KernelIdeal.main_arg6 (by decide))).trans (Cert.KernelIdeal.Hand.W4_main_arg6 m ρ c)
    · exact (h c _ (Cert.KernelIdeal.Hand.mem_uc Cert.KernelIdeal.main_arg7 (by decide))).trans (Cert.KernelIdeal.Hand.W4_main_arg7 m ρ c)
    · exact (h c _ (Cert.KernelIdeal.Hand.mem_uc Cert.KernelIdeal.main_arg8 (by decide))).trans (Cert.KernelIdeal.Hand.W4_main_arg8 m ρ c)
    · exact (h c _ (Cert.KernelIdeal.Hand.mem_uc Cert.KernelIdeal.main_arg9 (by decide))).trans (Cert.KernelIdeal.Hand.W4_main_arg9 m ρ c)
    · exact (h c _ (Cert.KernelIdeal.Hand.mem_uc Cert.KernelIdeal.main_arg10 (by decide))).trans (Cert.KernelIdeal.Hand.W4_main_arg10 m ρ c)
    · exact (h c _ (Cert.KernelIdeal.Hand.mem_uc Cert.KernelIdeal.main_arg11 (by decide))).trans (Cert.KernelIdeal.Hand.W4_main_arg11 m ρ c)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    refine (Cert.RefNet.result_eq m' c).trans ?_
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
